-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x128x64 : Shape := ⟨3, ![4, 128, 64]⟩
abbrev S128 : Shape := ⟨1, ![128]⟩
abbrev S64 : Shape := ⟨1, ![64]⟩
abbrev S4x160000 : Shape := ⟨2, ![4, 160000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x64 : S_.BroadcastsInDim S4x128x64 (![] : Fin 0 → Fin S4x128x64.rank)
  reducesTo_S4x128x64_S_d0_1_2 : S4x128x64.ReducesTo [0, 1, 2] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : FVec F S4x128x64 .f32) (main_arg2 : FVec F S128 .f32) (main_arg3 : FVec F S64 .f32) (main_arg4 : IVec S4x160000 32) (main_arg5 : IVec S4x160000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x64 .f32 := Host.absf main_arg1
  let main_cst_0 : FVec F S_ .f32 := constant S_ .f32 0x7F800000#32
  let main_v5 : FVec F S4x128x64 .f32 := broadcastInDim S4x128x64 ![] bcast_S_S4x128x64 main_cst_0
  let main_v6 : IVec S4x128x64 1 := cmpf .olt main_v4 main_v5
  let main_c_1 : IVec S_ 1 := constantI S_ 1 1#1
  let main_v7 : IVec S_ 1 := (fun x v => Host.reduce IntOp.andi x v reducesTo_S4x128x64_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S4x128x64 : Shape := ⟨3, ![4, 128, 64]⟩
abbrev S128 : Shape := ⟨1, ![128]⟩
abbrev S64 : Shape := ⟨1, ![64]⟩
abbrev S4x160000 : Shape := ⟨2, ![4, 160000]⟩
abbrev S_ : Shape := ⟨0, ![]⟩
abbrev S160000 : Shape := ⟨1, ![160000]⟩
abbrev S1x160000 : Shape := ⟨2, ![1, 160000]⟩
abbrev S100000 : Shape := ⟨1, ![100000]⟩
abbrev S160000x1 : Shape := ⟨2, ![160000, 1]⟩
abbrev S160000x128 : Shape := ⟨2, ![160000, 128]⟩
abbrev S100000x1 : Shape := ⟨2, ![100000, 1]⟩
abbrev S1x128 : Shape := ⟨2, ![1, 128]⟩
abbrev S5000x128 : Shape := ⟨2, ![5000, 128]⟩
abbrev S4x100000x64 : Shape := ⟨3, ![4, 100000, 64]⟩
abbrev S1x128x64 : Shape := ⟨3, ![1, 128, 64]⟩
abbrev S1x5000x64 : Shape := ⟨3, ![1, 5000, 64]⟩
abbrev S128x64 : Shape := ⟨2, ![128, 64]⟩
abbrev S5000x64 : Shape := ⟨2, ![5000, 64]⟩
abbrev S1x100000x64 : Shape := ⟨3, ![1, 100000, 64]⟩
abbrev S100000x64 : Shape := ⟨2, ![100000, 64]⟩
abbrev S160000x64 : Shape := ⟨2, ![160000, 64]⟩
abbrev S1x64 : Shape := ⟨2, ![1, 64]⟩

abbrev nBuf : Space → Nat
  | .hbm => 217
  | .vmem => 28
  | .smem => 0
  | _ => 0

abbrev hbmTy0_0 (i : Nat) : BufTy := match i % 128 with
  | 0 => ⟨S100000x128, .f32⟩
  | 1 => ⟨S4x128x64, .f32⟩
  | 2 => ⟨S128, .f32⟩
  | 3 => ⟨S64, .f32⟩
  | 4 => ⟨S4x160000, .i32⟩
  | 5 => ⟨S4x160000, .i32⟩
  | 6 => ⟨S_, .f32⟩
  | 7 => ⟨S160000, .f32⟩
  | 8 => ⟨S1x160000, .i32⟩
  | 9 => ⟨S160000, .i32⟩
  | 10 => ⟨S_, .f32⟩
  | 11 => ⟨S100000, .f32⟩
  | 12 => ⟨S160000x1, .i32⟩
  | 13 => ⟨S100000, .f32⟩
  | 14 => ⟨S_, .f32⟩
  | 15 => ⟨S100000, .f32⟩
  | 16 => ⟨S100000, .f32⟩
  | 17 => ⟨S1x160000, .i32⟩
  | 18 => ⟨S160000, .i32⟩
  | 19 => ⟨S_, .f32⟩
  | 20 => ⟨S100000, .f32⟩
  | 21 => ⟨S160000x1, .i32⟩
  | 22 => ⟨S100000, .f32⟩
  | 23 => ⟨S_, .f32⟩
  | 24 => ⟨S100000, .f32⟩
  | 25 => ⟨S100000, .f32⟩
  | 26 => ⟨S1x160000, .i32⟩
  | 27 => ⟨S160000, .i32⟩
  | 28 => ⟨S_, .f32⟩
  | 29 => ⟨S100000, .f32⟩
  | 30 => ⟨S160000x1, .i32⟩
  | 31 => ⟨S100000, .f32⟩
  | 32 => ⟨S_, .f32⟩
  | 33 => ⟨S100000, .f32⟩
  | 34 => ⟨S100000, .f32⟩
  | 35 => ⟨S1x160000, .i32⟩
  | 36 => ⟨S160000, .i32⟩
  | 37 => ⟨S_, .f32⟩
  | 38 => ⟨S100000, .f32⟩
  | 39 => ⟨S160000x1, .i32⟩
  | 40 => ⟨S100000, .f32⟩
  | 41 => ⟨S_, .f32⟩
  | 42 => ⟨S100000, .f32⟩
  | 43 => ⟨S100000, .f32⟩
  | 44 => ⟨S1x160000, .i32⟩
  | 45 => ⟨S160000, .i32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x128, .f32⟩
  | 55 => ⟨S1x160000, .i32⟩
  | 56 => ⟨S160000, .i32⟩
  | 57 => ⟨S_, .f32⟩
  | 58 => ⟨S100000x128, .f32⟩
  | 59 => ⟨S160000x1, .i32⟩
  | 60 => ⟨S100000x128, .f32⟩
  | 61 => ⟨S100000x1, .f32⟩
  | 62 => ⟨S100000x128, .f32⟩
  | 63 => ⟨S100000x128, .f32⟩
  | 64 => ⟨S1x160000, .i32⟩
  | 65 => ⟨S160000, .i32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000x128, .f32⟩
  | 75 => ⟨S1x160000, .i32⟩
  | 76 => ⟨S160000, .i32⟩
  | 77 => ⟨S_, .f32⟩
  | 78 => ⟨S100000x128, .f32⟩
  | 79 => ⟨S160000x1, .i32⟩
  | 80 => ⟨S100000x128, .f32⟩
  | 81 => ⟨S100000x1, .f32⟩
  | 82 => ⟨S100000x128, .f32⟩
  | 83 => ⟨S100000x128, .f32⟩
  | 84 => ⟨S1x160000, .i32⟩
  | 85 => ⟨S160000, .i32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S160000x128, .f32⟩
  | 95 => ⟨S1x160000, .i32⟩
  | 96 => ⟨S160000, .i32⟩
  | 97 => ⟨S_, .f32⟩
  | 98 => ⟨S100000x128, .f32⟩
  | 99 => ⟨S160000x1, .i32⟩
  | 100 => ⟨S100000x128, .f32⟩
  | 101 => ⟨S100000x1, .f32⟩
  | 102 => ⟨S100000x128, .f32⟩
  | 103 => ⟨S100000x128, .f32⟩
  | 104 => ⟨S1x160000, .i32⟩
  | 105 => ⟨S160000, .i32⟩
  | 106 => ⟨S_, .i32⟩
  | 107 => ⟨S160000, .i32⟩
  | 108 => ⟨S160000, .i1⟩
  | 109 => ⟨S_, .i32⟩
  | 110 => ⟨S160000, .i32⟩
  | 111 => ⟨S160000, .i32⟩
  | 112 => ⟨S160000, .i32⟩
  | 113 => ⟨S160000x1, .i32⟩
  | 114 => ⟨S160000x128, .f32⟩
  | 115 => ⟨S1x160000, .i32⟩
  | 116 => ⟨S160000, .i32⟩
  | 117 => ⟨S_, .f32⟩
  | 118 => ⟨S100000x128, .f32⟩
  | 119 => ⟨S160000x1, .i32⟩
  | 120 => ⟨S100000x128, .f32⟩
  | 121 => ⟨S100000x1, .f32⟩
  | 122 => ⟨S100000x128, .f32⟩
  | 123 => ⟨S100000x128, .f32⟩
  | 124 => ⟨S1x128, .f32⟩
  | 125 => ⟨S100000x128, .f32⟩
  | 126 => ⟨S4x100000x64, .f32⟩
  | 127 => ⟨S1x100000x64, .f32⟩
  | _ => ⟨S100000x128, .f32⟩

abbrev hbmTy0_1 (i : Nat) : BufTy := match i % 128 with
  | 0 => ⟨S100000x64, .f32⟩
  | 1 => ⟨S1x160000, .i32⟩
  | 2 => ⟨S160000, .i32⟩
  | 3 => ⟨S_, .i32⟩
  | 4 => ⟨S160000, .i32⟩
  | 5 => ⟨S160000, .i1⟩
  | 6 => ⟨S_, .i32⟩
  | 7 => ⟨S160000, .i32⟩
  | 8 => ⟨S160000, .i32⟩
  | 9 => ⟨S160000, .i32⟩
  | 10 => ⟨S160000x1, .i32⟩
  | 11 => ⟨S160000x64, .f32⟩
  | 12 => ⟨S1x160000, .i32⟩
  | 13 => ⟨S160000, .i32⟩
  | 14 => ⟨S_, .f32⟩
  | 15 => ⟨S100000x64, .f32⟩
  | 16 => ⟨S160000x1, .i32⟩
  | 17 => ⟨S100000x64, .f32⟩
  | 18 => ⟨S100000x1, .f32⟩
  | 19 => ⟨S100000x64, .f32⟩
  | 20 => ⟨S100000x64, .f32⟩
  | 21 => ⟨S1x100000x64, .f32⟩
  | 22 => ⟨S100000x64, .f32⟩
  | 23 => ⟨S1x160000, .i32⟩
  | 24 => ⟨S160000, .i32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x64, .f32⟩
  | 34 => ⟨S1x160000, .i32⟩
  | 35 => ⟨S160000, .i32⟩
  | 36 => ⟨S_, .f32⟩
  | 37 => ⟨S100000x64, .f32⟩
  | 38 => ⟨S160000x1, .i32⟩
  | 39 => ⟨S100000x64, .f32⟩
  | 40 => ⟨S100000x1, .f32⟩
  | 41 => ⟨S100000x64, .f32⟩
  | 42 => ⟨S100000x64, .f32⟩
  | 43 => ⟨S1x100000x64, .f32⟩
  | 44 => ⟨S100000x64, .f32⟩
  | 45 => ⟨S1x160000, .i32⟩
  | 46 => ⟨S160000, .i32⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S160000x64, .f32⟩
  | 56 => ⟨S1x160000, .i32⟩
  | 57 => ⟨S160000, .i32⟩
  | 58 => ⟨S_, .f32⟩
  | 59 => ⟨S100000x64, .f32⟩
  | 60 => ⟨S160000x1, .i32⟩
  | 61 => ⟨S100000x64, .f32⟩
  | 62 => ⟨S100000x1, .f32⟩
  | 63 => ⟨S100000x64, .f32⟩
  | 64 => ⟨S100000x64, .f32⟩
  | 65 => ⟨S1x100000x64, .f32⟩
  | 66 => ⟨S100000x64, .f32⟩
  | 67 => ⟨S1x160000, .i32⟩
  | 68 => ⟨S160000, .i32⟩
  | 69 => ⟨S_, .i32⟩
  | 70 => ⟨S160000, .i32⟩
  | 71 => ⟨S160000, .i1⟩
  | 72 => ⟨S_, .i32⟩
  | 73 => ⟨S160000, .i32⟩
  | 74 => ⟨S160000, .i32⟩
  | 75 => ⟨S160000, .i32⟩
  | 76 => ⟨S160000x1, .i32⟩
  | 77 => ⟨S160000x64, .f32⟩
  | 78 => ⟨S1x160000, .i32⟩
  | 79 => ⟨S160000, .i32⟩
  | 80 => ⟨S_, .f32⟩
  | 81 => ⟨S100000x64, .f32⟩
  | 82 => ⟨S160000x1, .i32⟩
  | 83 => ⟨S100000x64, .f32⟩
  | 84 => ⟨S100000x1, .f32⟩
  | 85 => ⟨S100000x64, .f32⟩
  | 86 => ⟨S100000x64, .f32⟩
  | 87 => ⟨S1x64, .f32⟩
  | 88 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128x64, .f32⟩
  | .local _ .vmem, ⟨14, _⟩ => ⟨S1x128x64, .f32⟩
  | .local _ .vmem, ⟨15, _⟩ => ⟨S1x5000x64, .f32⟩
  | .local _ .vmem, ⟨16, _⟩ => ⟨S1x5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_c_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_13 : Ref sig .tc := ⟨.hbm, 86, rfl⟩
abbrev main_v65 : Ref sig .tc := ⟨.hbm, 87, rfl⟩
abbrev main_v66 : Ref sig .tc := ⟨.hbm, 88, rfl⟩
abbrev main_c_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_16 : Ref sig .tc := ⟨.hbm, 106, rfl⟩
abbrev main_v82 : Ref sig .tc := ⟨.hbm, 107, rfl⟩
abbrev main_v83 : Ref sig .tc := ⟨.hbm, 108, rfl⟩
abbrev main_c_17 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_18 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_c_19 : Ref sig .tc := ⟨.hbm, 131, rfl⟩
abbrev main_v104 : Ref sig .tc := ⟨.hbm, 132, rfl⟩
abbrev main_v105 : Ref sig .tc := ⟨.hbm, 133, rfl⟩
abbrev main_c_20 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_21 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_c_22 : Ref sig .tc := ⟨.hbm, 153, rfl⟩
abbrev main_v123 : Ref sig .tc := ⟨.hbm, 154, rfl⟩
abbrev main_v124 : Ref sig .tc := ⟨.hbm, 155, rfl⟩
abbrev main_c_23 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_24 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_c_25 : Ref sig .tc := ⟨.hbm, 175, rfl⟩
abbrev main_v142 : Ref sig .tc := ⟨.hbm, 176, rfl⟩
abbrev main_v143 : Ref sig .tc := ⟨.hbm, 177, rfl⟩
abbrev main_c_26 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_27 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_c_28 : Ref sig .tc := ⟨.hbm, 197, rfl⟩
abbrev main_v161 : Ref sig .tc := ⟨.hbm, 198, rfl⟩
abbrev main_v162 : Ref sig .tc := ⟨.hbm, 199, rfl⟩
abbrev main_c_29 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_cst_30 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![20, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S160000 : S_.BroadcastsInDim S160000 (![] : Fin 0 → Fin S160000.rank)
  slices_S4x160000_S1x160000_0_0 : S4x160000.Slices ![0, 0] S1x160000
  shapeCasts_S1x160000_S160000 : S1x160000.ShapeCasts S160000
  bcast_S_S100000 : S_.BroadcastsInDim S100000 (![] : Fin 0 → Fin S100000.rank)
  bcast_S160000_S160000x1_0 : S160000.BroadcastsInDim S160000x1 (![0] : Fin 1 → Fin S160000x1.rank)
  slices_S4x160000_S1x160000_1_0 : S4x160000.Slices ![1, 0] S1x160000
  slices_S4x160000_S1x160000_2_0 : S4x160000.Slices ![2, 0] S1x160000
  slices_S4x160000_S1x160000_3_0 : S4x160000.Slices ![3, 0] S1x160000
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  shapeCasts_S5000x64_S1x5000x64 : S5000x64.ShapeCasts S1x5000x64
  slices_S4x100000x64_S1x100000x64_0_0_0 : S4x100000x64.Slices ![0, 0, 0] S1x100000x64
  shapeCasts_S1x100000x64_S100000x64 : S1x100000x64.ShapeCasts S100000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S4x100000x64_S1x100000x64_1_0_0 : S4x100000x64.Slices ![1, 0, 0] S1x100000x64
  slices_S4x100000x64_S1x100000x64_2_0_0 : S4x100000x64.Slices ![2, 0, 0] S1x100000x64
  slices_S4x100000x64_S1x100000x64_3_0_0 : S4x100000x64.Slices ![3, 0, 0] S1x100000x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S160000x1_S160000_n_0_0_1_wf : ScatterDims.WF S100000 S160000x1 S160000 [] [0] [0] 1
  gather_S100000x128_S160000x1_S160000x128_1_0_n_n_0_1_1128_wf : GatherDims.WF S100000x128 S160000x1 S160000x128 [1] [0] [] [0] [] 1 ![1, 128]
  scatter_S100000x128_S160000x1_S160000x128_1_0_0_1_wf : ScatterDims.WF S100000x128 S160000x1 S160000x128 [1] [0] [0] 1
  dot_S5000x128_S128x64_S5000x64_1_0_0_1_n_n_wf : DotDims.WF S5000x128 S128x64 S5000x64 [1] [0] [0] [1] [] []
  gather_S100000x64_S160000x1_S160000x64_1_0_n_n_0_1_164_wf : GatherDims.WF S100000x64 S160000x1 S160000x64 [1] [0] [] [0] [] 1 ![1, 64]
  scatter_S100000x64_S160000x1_S160000x64_1_0_0_1_wf : ScatterDims.WF S100000x64 S160000x1 S160000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S4x128x64.size a
  hwx1_1 : ∀ i : grid1.Coords, EltTy.bits .f32 = 32 ∨ (Rect.block (s := S4x128x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x5000x64.size a ≤ S4x100000x64.size a
  hwx1_2 : ∀ i : grid1.Coords, EltTy.bits .f32 = 32 ∨ (Rect.block (s := S4x100000x64) S1x5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S160000x1_S160000_n_0_0_1 : ScatterDims S100000 S160000x1 S160000 where
  updateWindowDims := []
  insertedWindowDims := [0]
  scatterDimsToOperandDims := [0]
  indexVectorDim := 1
  wf := scatter_S100000_S160000x1_S160000_n_0_0_1_wf
def gather_S100000x128_S160000x1_S160000x128_1_0_n_n_0_1_1128 : GatherDims S100000x128 S160000x1 S160000x128 where
  offsetDims := [1]
  collapsedSliceDims := [0]
  operandBatchingDims := []
  startIndicesBatchingDims := []
  startIndexMap := [0]
  indexVectorDim := 1
  sliceSizes := ![1, 128]
  wf := gather_S100000x128_S160000x1_S160000x128_1_0_n_n_0_1_1128_wf
def scatter_S100000x128_S160000x1_S160000x128_1_0_0_1 : ScatterDims S100000x128 S160000x1 S160000x128 where
  updateWindowDims := [1]
  insertedWindowDims := [0]
  scatterDimsToOperandDims := [0]
  indexVectorDim := 1
  wf := scatter_S100000x128_S160000x1_S160000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S160000x1_S160000x64_1_0_n_n_0_1_164 : GatherDims S100000x64 S160000x1 S160000x64 where
  offsetDims := [1]
  collapsedSliceDims := [0]
  operandBatchingDims := []
  startIndicesBatchingDims := []
  startIndexMap := [0]
  indexVectorDim := 1
  sliceSizes := ![1, 64]
  wf := gather_S100000x64_S160000x1_S160000x64_1_0_n_n_0_1_164_wf
def scatter_S100000x64_S160000x1_S160000x64_1_0_0_1 : ScatterDims S100000x64 S160000x1 S160000x64 where
  updateWindowDims := [1]
  insertedWindowDims := [0]
  scatterDimsToOperandDims := [0]
  indexVectorDim := 1
  wf := scatter_S100000x64_S160000x1_S160000x64_1_0_0_1_wf

abbrev win0_0 : Pipeline.Window sig grid0 :=
  Pipeline.Window.ofSpec (Memref.whole main_v45) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v79) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v96) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v97) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v98) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v98) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v99) S1x5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v118) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v137) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v156) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v175) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v176) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v177) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S4x128x64 : Shape := ⟨3, ![4, 128, 64]⟩
abbrev S128 : Shape := ⟨1, ![128]⟩
abbrev S64 : Shape := ⟨1, ![64]⟩
abbrev S4x160000 : Shape := ⟨2, ![4, 160000]⟩
abbrev S_ : Shape := ⟨0, ![]⟩
abbrev S1x160000 : Shape := ⟨2, ![1, 160000]⟩
abbrev S160000 : Shape := ⟨1, ![160000]⟩
abbrev S160000x1 : Shape := ⟨2, ![160000, 1]⟩
abbrev S160000x128 : Shape := ⟨2, ![160000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x128x64 : Shape := ⟨3, ![1, 128, 64]⟩
abbrev S128x64 : Shape := ⟨2, ![128, 64]⟩
abbrev S160000x64 : Shape := ⟨2, ![160000, 64]⟩
abbrev S1x64 : Shape := ⟨2, ![1, 64]⟩

abbrev nBuf : Space → Nat
  | .hbm => 271
  | .vmem => 0
  | .smem => 0
  | _ => 0

abbrev hbmTy0_0 (i : Nat) : BufTy := match i % 128 with
  | 0 => ⟨S100000x128, .f32⟩
  | 1 => ⟨S4x128x64, .f32⟩
  | 2 => ⟨S128, .f32⟩
  | 3 => ⟨S64, .f32⟩
  | 4 => ⟨S4x160000, .i32⟩
  | 5 => ⟨S4x160000, .i32⟩
  | 6 => ⟨S_, .f32⟩
  | 7 => ⟨S100000x128, .f32⟩
  | 8 => ⟨S1x160000, .i32⟩
  | 9 => ⟨S160000, .i32⟩
  | 10 => ⟨S1x160000, .i32⟩
  | 11 => ⟨S160000, .i32⟩
  | 12 => ⟨S_, .i32⟩
  | 13 => ⟨S160000, .i32⟩
  | 14 => ⟨S160000, .i1⟩
  | 15 => ⟨S_, .i32⟩
  | 16 => ⟨S160000, .i32⟩
  | 17 => ⟨S160000, .i32⟩
  | 18 => ⟨S160000, .i32⟩
  | 19 => ⟨S160000x1, .i32⟩
  | 20 => ⟨S160000x128, .f32⟩
  | 21 => ⟨S_, .f32⟩
  | 22 => ⟨S100000x128, .f32⟩
  | 23 => ⟨S160000x1, .i32⟩
  | 24 => ⟨S100000x128, .f32⟩
  | 25 => ⟨S_, .f32⟩
  | 26 => ⟨S160000, .f32⟩
  | 27 => ⟨S_, .f32⟩
  | 28 => ⟨S100000, .f32⟩
  | 29 => ⟨S160000x1, .i32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S100000x128, .f32⟩
  | 38 => ⟨S1x160000, .i32⟩
  | 39 => ⟨S160000, .i32⟩
  | 40 => ⟨S1x160000, .i32⟩
  | 41 => ⟨S160000, .i32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x128, .f32⟩
  | 51 => ⟨S_, .f32⟩
  | 52 => ⟨S100000x128, .f32⟩
  | 53 => ⟨S160000x1, .i32⟩
  | 54 => ⟨S100000x128, .f32⟩
  | 55 => ⟨S_, .f32⟩
  | 56 => ⟨S160000, .f32⟩
  | 57 => ⟨S_, .f32⟩
  | 58 => ⟨S100000, .f32⟩
  | 59 => ⟨S160000x1, .i32⟩
  | 60 => ⟨S100000, .f32⟩
  | 61 => ⟨S_, .f32⟩
  | 62 => ⟨S100000, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x160000, .i32⟩
  | 69 => ⟨S160000, .i32⟩
  | 70 => ⟨S1x160000, .i32⟩
  | 71 => ⟨S160000, .i32⟩
  | 72 => ⟨S_, .i32⟩
  | 73 => ⟨S160000, .i32⟩
  | 74 => ⟨S160000, .i1⟩
  | 75 => ⟨S_, .i32⟩
  | 76 => ⟨S160000, .i32⟩
  | 77 => ⟨S160000, .i32⟩
  | 78 => ⟨S160000, .i32⟩
  | 79 => ⟨S160000x1, .i32⟩
  | 80 => ⟨S160000x128, .f32⟩
  | 81 => ⟨S_, .f32⟩
  | 82 => ⟨S100000x128, .f32⟩
  | 83 => ⟨S160000x1, .i32⟩
  | 84 => ⟨S100000x128, .f32⟩
  | 85 => ⟨S_, .f32⟩
  | 86 => ⟨S160000, .f32⟩
  | 87 => ⟨S_, .f32⟩
  | 88 => ⟨S100000, .f32⟩
  | 89 => ⟨S160000x1, .i32⟩
  | 90 => ⟨S100000, .f32⟩
  | 91 => ⟨S_, .f32⟩
  | 92 => ⟨S100000, .f32⟩
  | 93 => ⟨S100000, .f32⟩
  | 94 => ⟨S100000x1, .f32⟩
  | 95 => ⟨S100000x128, .f32⟩
  | 96 => ⟨S100000x128, .f32⟩
  | 97 => ⟨S100000x128, .f32⟩
  | 98 => ⟨S1x160000, .i32⟩
  | 99 => ⟨S160000, .i32⟩
  | 100 => ⟨S1x160000, .i32⟩
  | 101 => ⟨S160000, .i32⟩
  | 102 => ⟨S_, .i32⟩
  | 103 => ⟨S160000, .i32⟩
  | 104 => ⟨S160000, .i1⟩
  | 105 => ⟨S_, .i32⟩
  | 106 => ⟨S160000, .i32⟩
  | 107 => ⟨S160000, .i32⟩
  | 108 => ⟨S160000, .i32⟩
  | 109 => ⟨S160000x1, .i32⟩
  | 110 => ⟨S160000x128, .f32⟩
  | 111 => ⟨S_, .f32⟩
  | 112 => ⟨S100000x128, .f32⟩
  | 113 => ⟨S160000x1, .i32⟩
  | 114 => ⟨S100000x128, .f32⟩
  | 115 => ⟨S_, .f32⟩
  | 116 => ⟨S160000, .f32⟩
  | 117 => ⟨S_, .f32⟩
  | 118 => ⟨S100000, .f32⟩
  | 119 => ⟨S160000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .f32⟩
  | 7 => ⟨S100000x64, .f32⟩
  | 8 => ⟨S1x128x64, .f32⟩
  | 9 => ⟨S128x64, .f32⟩
  | 10 => ⟨S100000x64, .f32⟩
  | 11 => ⟨S1x160000, .i32⟩
  | 12 => ⟨S160000, .i32⟩
  | 13 => ⟨S1x160000, .i32⟩
  | 14 => ⟨S160000, .i32⟩
  | 15 => ⟨S_, .i32⟩
  | 16 => ⟨S160000, .i32⟩
  | 17 => ⟨S160000, .i1⟩
  | 18 => ⟨S_, .i32⟩
  | 19 => ⟨S160000, .i32⟩
  | 20 => ⟨S160000, .i32⟩
  | 21 => ⟨S160000, .i32⟩
  | 22 => ⟨S160000x1, .i32⟩
  | 23 => ⟨S160000x64, .f32⟩
  | 24 => ⟨S_, .f32⟩
  | 25 => ⟨S100000x64, .f32⟩
  | 26 => ⟨S160000x1, .i32⟩
  | 27 => ⟨S100000x64, .f32⟩
  | 28 => ⟨S_, .f32⟩
  | 29 => ⟨S160000, .f32⟩
  | 30 => ⟨S_, .f32⟩
  | 31 => ⟨S100000, .f32⟩
  | 32 => ⟨S160000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S100000x64, .f32⟩
  | 41 => ⟨S1x128x64, .f32⟩
  | 42 => ⟨S128x64, .f32⟩
  | 43 => ⟨S100000x64, .f32⟩
  | 44 => ⟨S1x160000, .i32⟩
  | 45 => ⟨S160000, .i32⟩
  | 46 => ⟨S1x160000, .i32⟩
  | 47 => ⟨S160000, .i32⟩
  | 48 => ⟨S_, .i32⟩
  | 49 => ⟨S160000, .i32⟩
  | 50 => ⟨S160000, .i1⟩
  | 51 => ⟨S_, .i32⟩
  | 52 => ⟨S160000, .i32⟩
  | 53 => ⟨S160000, .i32⟩
  | 54 => ⟨S160000, .i32⟩
  | 55 => ⟨S160000x1, .i32⟩
  | 56 => ⟨S160000x64, .f32⟩
  | 57 => ⟨S_, .f32⟩
  | 58 => ⟨S100000x64, .f32⟩
  | 59 => ⟨S160000x1, .i32⟩
  | 60 => ⟨S100000x64, .f32⟩
  | 61 => ⟨S_, .f32⟩
  | 62 => ⟨S160000, .f32⟩
  | 63 => ⟨S_, .f32⟩
  | 64 => ⟨S100000, .f32⟩
  | 65 => ⟨S160000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x64, .f32⟩
  | 72 => ⟨S100000x64, .f32⟩
  | 73 => ⟨S100000x64, .f32⟩
  | 74 => ⟨S1x128x64, .f32⟩
  | 75 => ⟨S128x64, .f32⟩
  | 76 => ⟨S100000x64, .f32⟩
  | 77 => ⟨S1x160000, .i32⟩
  | 78 => ⟨S160000, .i32⟩
  | 79 => ⟨S1x160000, .i32⟩
  | 80 => ⟨S160000, .i32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x64, .f32⟩
  | 90 => ⟨S_, .f32⟩
  | 91 => ⟨S100000x64, .f32⟩
  | 92 => ⟨S160000x1, .i32⟩
  | 93 => ⟨S100000x64, .f32⟩
  | 94 => ⟨S_, .f32⟩
  | 95 => ⟨S160000, .f32⟩
  | 96 => ⟨S_, .f32⟩
  | 97 => ⟨S100000, .f32⟩
  | 98 => ⟨S160000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x64, .f32⟩
  | 105 => ⟨S100000x64, .f32⟩
  | 106 => ⟨S100000x64, .f32⟩
  | 107 => ⟨S1x128x64, .f32⟩
  | 108 => ⟨S128x64, .f32⟩
  | 109 => ⟨S100000x64, .f32⟩
  | 110 => ⟨S1x160000, .i32⟩
  | 111 => ⟨S160000, .i32⟩
  | 112 => ⟨S1x160000, .i32⟩
  | 113 => ⟨S160000, .i32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S160000x64, .f32⟩
  | 123 => ⟨S_, .f32⟩
  | 124 => ⟨S100000x64, .f32⟩
  | 125 => ⟨S160000x1, .i32⟩
  | 126 => ⟨S100000x64, .f32⟩
  | 127 => ⟨S_, .f32⟩
  | _ => ⟨S100000x128, .f32⟩

abbrev hbmTy0_2 (i : Nat) : BufTy := match i % 128 with
  | 0 => ⟨S160000, .f32⟩
  | 1 => ⟨S_, .f32⟩
  | 2 => ⟨S100000, .f32⟩
  | 3 => ⟨S160000x1, .i32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_17 : Ref sig .tc := ⟨.hbm, 102, rfl⟩
abbrev main_v77 : Ref sig .tc := ⟨.hbm, 103, rfl⟩
abbrev main_v78 : Ref sig .tc := ⟨.hbm, 104, rfl⟩
abbrev main_c_18 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_19 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_v87 : Ref sig .tc := ⟨.hbm, 116, rfl⟩
abbrev main_cst_21 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_22 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call0_cst : Ref sig .tc := ⟨.hbm, 131, rfl⟩
abbrev main_call0_v0 : Ref sig .tc := ⟨.hbm, 132, rfl⟩
abbrev main_v100 : Ref sig .tc := ⟨.hbm, 133, rfl⟩
abbrev main_cst_23 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_c_24 : Ref sig .tc := ⟨.hbm, 143, rfl⟩
abbrev main_v109 : Ref sig .tc := ⟨.hbm, 144, rfl⟩
abbrev main_v110 : Ref sig .tc := ⟨.hbm, 145, rfl⟩
abbrev main_c_25 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_26 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_27 : Ref sig .tc := ⟨.hbm, 156, rfl⟩
abbrev main_v119 : Ref sig .tc := ⟨.hbm, 157, rfl⟩
abbrev main_cst_28 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_29 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_c_30 : Ref sig .tc := ⟨.hbm, 176, rfl⟩
abbrev main_v136 : Ref sig .tc := ⟨.hbm, 177, rfl⟩
abbrev main_v137 : Ref sig .tc := ⟨.hbm, 178, rfl⟩
abbrev main_c_31 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_32 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_33 : Ref sig .tc := ⟨.hbm, 189, rfl⟩
abbrev main_v146 : Ref sig .tc := ⟨.hbm, 190, rfl⟩
abbrev main_cst_34 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_35 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_c_36 : Ref sig .tc := ⟨.hbm, 209, rfl⟩
abbrev main_v163 : Ref sig .tc := ⟨.hbm, 210, rfl⟩
abbrev main_v164 : Ref sig .tc := ⟨.hbm, 211, rfl⟩
abbrev main_c_37 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_38 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_cst_39 : Ref sig .tc := ⟨.hbm, 222, rfl⟩
abbrev main_v173 : Ref sig .tc := ⟨.hbm, 223, rfl⟩
abbrev main_cst_40 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_41 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_c_42 : Ref sig .tc := ⟨.hbm, 242, rfl⟩
abbrev main_v190 : Ref sig .tc := ⟨.hbm, 243, rfl⟩
abbrev main_v191 : Ref sig .tc := ⟨.hbm, 244, rfl⟩
abbrev main_c_43 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_cst_44 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_cst_45 : Ref sig .tc := ⟨.hbm, 255, rfl⟩
abbrev main_v200 : Ref sig .tc := ⟨.hbm, 256, rfl⟩
abbrev main_cst_46 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_47 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S4x160000_S1x160000_0_0 : S4x160000.Slices ![0, 0] S1x160000
  shapeCasts_S1x160000_S160000 : S1x160000.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x160000_S1x160000_1_0 : S4x160000.Slices ![1, 0] S1x160000
  slices_S4x160000_S1x160000_2_0 : S4x160000.Slices ![2, 0] S1x160000
  slices_S4x160000_S1x160000_3_0 : S4x160000.Slices ![3, 0] S1x160000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  slices_S4x128x64_S1x128x64_0_0_0 : S4x128x64.Slices ![0, 0, 0] S1x128x64
  shapeCasts_S1x128x64_S128x64 : S1x128x64.ShapeCasts S128x64
  bcast_S100000x1_S100000x64_0_1 : S100000x1.BroadcastsInDim S100000x64 (![0, 1] : Fin 2 → Fin S100000x64.rank)
  slices_S4x128x64_S1x128x64_1_0_0 : S4x128x64.Slices ![1, 0, 0] S1x128x64
  slices_S4x128x64_S1x128x64_2_0_0 : S4x128x64.Slices ![2, 0, 0] S1x128x64
  slices_S4x128x64_S1x128x64_3_0_0 : S4x128x64.Slices ![3, 0, 0] S1x128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S160000x1_S160000x128_1_0_n_n_0_1_1128_wf : GatherDims.WF S100000x128 S160000x1 S160000x128 [1] [0] [] [0] [] 1 ![1, 128]
  scatter_S100000x128_S160000x1_S160000x128_1_0_0_1_wf : ScatterDims.WF S100000x128 S160000x1 S160000x128 [1] [0] [0] 1
  scatter_S100000_S160000x1_S160000_n_0_0_1_wf : ScatterDims.WF S100000 S160000x1 S160000 [] [0] [0] 1
  dot_S100000x128_S128x64_S100000x64_1_0_0_1_n_n_wf : DotDims.WF S100000x128 S128x64 S100000x64 [1] [0] [0] [1] [] []
  gather_S100000x64_S160000x1_S160000x64_1_0_n_n_0_1_164_wf : GatherDims.WF S100000x64 S160000x1 S160000x64 [1] [0] [] [0] [] 1 ![1, 64]
  scatter_S100000x64_S160000x1_S160000x64_1_0_0_1_wf : ScatterDims.WF S100000x64 S160000x1 S160000x64 [1] [0] [0] 1

variable [Facts₀]

def gather_S100000x128_S160000x1_S160000x128_1_0_n_n_0_1_1128 : GatherDims S100000x128 S160000x1 S160000x128 where
  offsetDims := [1]
  collapsedSliceDims := [0]
  operandBatchingDims := []
  startIndicesBatchingDims := []
  startIndexMap := [0]
  indexVectorDim := 1
  sliceSizes := ![1, 128]
  wf := gather_S100000x128_S160000x1_S160000x128_1_0_n_n_0_1_1128_wf
def scatter_S100000x128_S160000x1_S160000x128_1_0_0_1 : ScatterDims S100000x128 S160000x1 S160000x128 where
  updateWindowDims := [1]
  insertedWindowDims := [0]
  scatterDimsToOperandDims := [0]
  indexVectorDim := 1
  wf := scatter_S100000x128_S160000x1_S160000x128_1_0_0_1_wf
def scatter_S100000_S160000x1_S160000_n_0_0_1 : ScatterDims S100000 S160000x1 S160000 where
  updateWindowDims := []
  insertedWindowDims := [0]
  scatterDimsToOperandDims := [0]
  indexVectorDim := 1
  wf := scatter_S100000_S160000x1_S160000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S160000x1_S160000x64_1_0_n_n_0_1_164 : GatherDims S100000x64 S160000x1 S160000x64 where
  offsetDims := [1]
  collapsedSliceDims := [0]
  operandBatchingDims := []
  startIndicesBatchingDims := []
  startIndexMap := [0]
  indexVectorDim := 1
  sliceSizes := ![1, 64]
  wf := gather_S100000x64_S160000x1_S160000x64_1_0_n_n_0_1_164_wf
def scatter_S100000x64_S160000x1_S160000x64_1_0_0_1 : ScatterDims S100000x64 S160000x1 S160000x64 where
  updateWindowDims := [1]
  insertedWindowDims := [0]
  scatterDimsToOperandDims := [0]
  indexVectorDim := 1
  wf := scatter_S100000x64_S160000x1_S160000x64_1_0_0_1_wf

class Facts : Prop extends Facts₀ where

variable [Facts]
-- ==== Proof.KernelRun.lean ====
/-
  The idealized kernel's run with its RESULT named.

  @main is five segments: the host lines that build the four normalized neighbour sums and the bias row, the first
  combine region, the per-relation matrix-product region, the host lines that aggregate the products again, and the
  second combine region, whose output array is @main's result.  The run below is the frame run of those segments with
  one more reading of the last thread state: besides the six argument arrays, the result buffer ends at the last
  boundary's contents `W5` at that buffer, which is what the last region's write-backs leave in its output window's array.
-/
import proofs.«166910_j1675037246053_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched. -/
theorem run_result : θ_run defs (onTc (τ := τ) (main (F := F))) ⟨m, fun _ => 0, ρ⟩ (fun r => ∀ c : Dev nD,
      r.2.mem ((c.tc : Thread nD τ).loc main_v177) = W5 m ρ c (Proc.devRef .tc main_v177)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v177 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Named

end
-- ==== Proof.LibDot.lean ====
/-
  A matrix product with one contracted axis, read at an entry as a sum over that axis's coordinate.

  A contraction's index set is a shape of rank one here; the sum over it is the sum over `Fin K` once each operand's index
  at contraction position `k` is named by the coordinate of `k` (`contr_sum`).  The hypotheses ask for each operand
  index as a function of that coordinate, which the dimension numbers of a literal product give by computation.
-/
import Idealize.ShloMosaic.PureOps.Ideal.Laws
import Idealize.ShloMosaic.Lib.ValueIdx

noncomputable section

namespace Cert.LibDot

open Idealize.ShloMosaic Idealize.ShloMosaic.ValueIdx
open scoped BigOperators

/-- The contraction sum of a product whose dimension numbers contract ONE axis of extent `K`, as a sum over `Fin K`:
    `L q` and `R q` are the operands' indices at a contraction position whose coordinate is `q`. -/
theorem contr_sum {sl sr so : Shape} (D : DotDims sl sr so) (K : ℕ) (hr : D.contr.rank = 1)
    (hs : D.contr.size ⟨0, by omega⟩ = K) (lhs : sl.Idx → EReal) (rhs : sr.Idx → EReal) (j : so.Idx)
    (L : Fin K → sl.Idx) (R : Fin K → sr.Idx)
    (hL : ∀ (k : D.contr.Idx) (q : Fin K), (k ⟨0, by omega⟩).val = q.val → D.lhsIdx j k = L q)
    (hR : ∀ (k : D.contr.Idx) (q : Fin K), (k ⟨0, by omega⟩).val = q.val → D.rhsIdx j k = R q) :
    ∑ k : D.contr.Idx, lhs (D.lhsIdx j k) * rhs (D.rhsIdx j k) = ∑ q : Fin K, lhs (L q) * rhs (R q) := by
  rw [← Equiv.sum_comp (contrEquiv1 D K hr hs).symm (fun k => lhs (D.lhsIdx j k) * rhs (D.rhsIdx j k))]
  refine Finset.sum_congr rfl fun q _ => ?_
  rw [hL _ q (contrEquiv1_symm_val D K hr hs q), hR _ q (contrEquiv1_symm_val D K hr hs q)]

end Cert.LibDot

end
-- ==== Proof.Payloads.lean ====
/-
  The three kernel bodies, each read at one entry of the block it stores, over the extended reals.

  The two combine bodies add their four input blocks entry by entry, left to right, then the bias row's entry of the same
  column; the first also takes the maximum with zero.  The product body multiplies a block of rows by one relation's
  matrix: the narrowing of both operands to bf16 is the identity on extended reals, and a matrix product into a zero
  accumulator is the sum over the 128 contracted positions.
-/
import proofs.«166910_j1675037246053_1_alg».proof.Proof.Gen.KernelIdeal.Skeleton
import proofs.«166910_j1675037246053_1_alg».proof.Proof.LibDot
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The bias row's entry above entry `j` of a 5000 × 128 block. -/
abbrev row128 (j : S5000x128.Idx) : S1x128.Idx := fun a => match a with
  | ⟨0, _⟩ => ⟨0, Nat.one_pos⟩
  | ⟨1, _⟩ => ⟨(j 1).val, (j 1).isLt⟩

/-- The bias row's entry above entry `j` of a 5000 × 64 block. -/
abbrev row64 (j : S5000x64.Idx) : S1x64.Idx := fun a => match a with
  | ⟨0, _⟩ => ⟨0, Nat.one_pos⟩
  | ⟨1, _⟩ => ⟨(j 1).val, (j 1).isLt⟩

/-- The first combine body at an entry: the four blocks' entries added left to right, the bias entry of the column added,
    the maximum with zero taken. -/
theorem combine_relu_apply (x0 x1 x2 x3 : Vec Ideal S5000x128 .f32) (b : Vec Ideal S1x128 .f32) (j : S5000x128.Idx) :
    k0_pay1 (F := Ideal) x0 x1 x2 x3 b j = max ((((x0 j + x1 j) + x2 j) + x3 j) + b (row128 j)) (Ideal.ofBits .f32 0x00000000#32) := by
  unfold k0_pay1
  simp only [shapeCast_self]
  rw [maximumf_apply, addf_apply, addf_apply, addf_apply, addf_apply, broadcast_apply]
  rw [broadcastTo_apply b broadcasts_S1x128_S5000x128 j (row128 j) (fun a => match a with
    | ⟨0, _⟩ => by show (0 : ℕ) = if (1 : ℕ) = 1 then 0 else _; rw [if_pos rfl]
    | ⟨1, _⟩ => by show (j 1).val = if (128 : ℕ) = 1 then 0 else (j 1).val; rw [if_neg (by decide)])]
  rfl

/-- The second combine body at an entry: the same sums with no maximum. -/
theorem combine_apply (x0 x1 x2 x3 : Vec Ideal S5000x64 .f32) (b : Vec Ideal S1x64 .f32) (j : S5000x64.Idx) :
    k2_pay1 (F := Ideal) x0 x1 x2 x3 b j = (((x0 j + x1 j) + x2 j) + x3 j) + b (row64 j) := by
  unfold k2_pay1
  simp only [shapeCast_self]
  rw [addf_apply, addf_apply, addf_apply, addf_apply]
  rw [broadcastTo_apply b broadcasts_S1x64_S5000x64 j (row64 j) (fun a => match a with
    | ⟨0, _⟩ => by show (0 : ℕ) = if (1 : ℕ) = 1 then 0 else _; rw [if_pos rfl]
    | ⟨1, _⟩ => by show (j 1).val = if (64 : ℕ) = 1 then 0 else (j 1).val; rw [if_neg (by decide)])]

/-- Row `p`, contracted position `q` of a block of rows. -/
abbrev lrow (p : Fin 5000) (q : Fin 128) : S5000x128.Idx := fun a => match a with
  | ⟨0, _⟩ => p
  | ⟨1, _⟩ => q

/-- Contracted position `q`, column `r` of the one relation's matrix held in a 1 × 128 × 64 block. -/
abbrev wcol (q : Fin 128) (r : Fin 64) : S1x128x64.Idx := fun a => match a with
  | ⟨0, _⟩ => ⟨0, Nat.one_pos⟩
  | ⟨1, _⟩ => q
  | ⟨2, _⟩ => r

local notation "D" => dot_S5000x128_S128x64_S5000x64_1_0_0_1_n_n

theorem lhs0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

theorem rhs1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product body at an entry `(0, p, r)` of the block it stores: the sum over the 128 contracted positions of the row
    block's entry `(p, q)` times the relation's matrix entry `(q, r)`. -/
theorem product_apply (h : Vec Ideal S5000x128 .f32) (w : Vec Ideal S1x128x64 .f32) (j : S1x5000x64.Idx) :
    k1_pay1 (F := Ideal) h w j = ∑ q : Fin 128, h (lrow (j 1) q) * w (wcol q (j 2)) := by
  unfold k1_pay1
  simp only [shapeCast_self]
  have hj0 : (j 0).val < 1 := (j 0).isLt
  have hj1 : (j 1).val < 5000 := (j 1).isLt
  have hj2 : (j 2).val < 64 := (j 2).isLt
  let k : S5000x64.Idx := fun a => match a with
    | ⟨0, _⟩ => j 1
    | ⟨1, _⟩ => j 2
  rw [shapeCast_apply _ shapeCasts_S5000x64_S1x5000x64 j k (by
    rewrite [Shape.rowMajor_val_two, Shape.rowMajor_val_three]
    show (j 1).val * 64 + (j 2).val = ((j 0).val * 5000 + (j 1).val) * 64 + (j 2).val
    omega)]
  show FloatOps.matmul (F := Ideal) dot_S5000x128_S128x64_S5000x64_1_0_0_1_n_n none _ _ (constant S5000x64 .f32 0x00000000#32) k = _
  rw [Ideal.matmul_constant_zero_apply]
  rw [Cert.LibDot.contr_sum dot_S5000x128_S128x64_S5000x64_1_0_0_1_n_n 128 rfl rfl _ _ k
    (fun q => lrow (j 1) q) (fun q => (fun a => match a with | ⟨0, _⟩ => q | ⟨1, _⟩ => j 2 : S128x64.Idx))
    (fun kk q hq => funext fun a => Fin.ext (by
      match a with
      | ⟨0, _⟩ => exact lhs0 k kk
      | ⟨1, _⟩ => exact (dot_S5000x128_S128x64_S5000x64_1_0_0_1_n_n.lhsIdx_val_of_single rfl k kk).trans hq))
    (fun kk q hq => funext fun a => Fin.ext (by
      match a with
      | ⟨0, _⟩ => exact (dot_S5000x128_S128x64_S5000x64_1_0_0_1_n_n.rhsIdx_val_of_single rfl k kk).trans hq
      | ⟨1, _⟩ => exact rhs1 k kk))]
  refine Finset.sum_congr rfl fun q _ => ?_
  rw [truncf_apply, truncf_apply]
  congr 1
  exact shapeCast_apply w shapeCasts_S1x128x64_S128x64 _ (wcol q (j 2)) (by
    rewrite [Shape.rowMajor_val_three, Shape.rowMajor_val_two]
    show (0 * 128 + q.val) * 64 + (j 2).val = q.val * 64 + (j 2).val
    omega)

end Cert.KernelIdeal.Pay

end
-- ==== Proof.Region2.lean ====
/-
  The second combine region, from its blocks to its whole output array.

  Twenty points again; point `t` reads rows `5000 t … 5000 t + 4999` of the four aggregated products and the whole
  bias row, and writes the same rows of the output: at entry `(i, j)` the four entries added left to right and the
  bias entry `j` added.  Stated for any contents `V` of the buffers at the region's entry.
-/
import proofs.«166910_j1675037246053_1_alg».proof.Proof.Gen.KernelIdeal.Frame
import proofs.«166910_j1675037246053_1_alg».proof.Proof.Payloads

set_option maxRecDepth 16384

noncomputable section

namespace Cert.KernelIdeal.Reg2

open Cert.KernelIdeal Cert.KernelIdeal.Gen
open Idealize.ShloMosaic Idealize.ShloMosaic.TcCoe Idealize.SL.Sem
open Idealize.ShloMosaic.Pipeline (Dat Cfg Window)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl

/-- The bias row's entry above entry `i` of the whole array. -/
abbrev brow (i : S100000x64.Idx) : S1x64.Idx := fun a => match a with
  | ⟨0, _⟩ => ⟨0, Nat.one_pos⟩
  | ⟨1, _⟩ => ⟨(i 1).val, (i 1).isLt⟩

/-- The region's output as one function of the five arrays it reads. -/
def sumBias (a0 a1 a2 a3 : S100000x64.Idx → EReal) (b : S1x64.Idx → EReal) : S100000x64.Idx → EReal :=
  fun i => (((a0 i + a1 i) + a2 i) + a3 i) + b (brow i)

/-- The printed index maps over the grid: every row-block window sits at block `(t, 0)`, the bias window at `(0, 0)`. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of that function of the arrays as the region finds them. -/
theorem flushed_eq (c : Dev nD) (t : Fin cfg2.N) :
    (dat2 V c).flushed 5 t = ((cfg2.win 5).blk t).view.read (Elt Ideal)
      (sumBias (V c main_v118) (V c main_v137) (V c main_v156) (V c main_v175) (V c main_v176)) := by
  show (cfg2.win 5).cut (grid2.coords t) ((dat2 V c).after 5 t) = _
  rw [after2_5]
  unfold out2_5
  rw [View.canon_unit_zero origin2]
  simp only [View.ld_unit_zero (S := S5000x64) origin2, View.ld_unit_zero (S := S1x64) origin2]
  obtain ⟨e00, e01, e10, e11, e20, e21, e30, e31, e40, e41, e50, e51⟩ := index_facts t
  refine funext fun (j : S5000x64.Idx) => ?_
  refine (Pay.combine_apply (iblk2 V c 0 t) (iblk2 V c 1 t) (iblk2 V c 2 t) (iblk2 V c 3 t) (iblk2 V c 4 t) j).trans ?_
  have hj0 : (j 0).val < 5000 := (j 0).isLt
  have hj1 : (j 1).val < 64 := (j 1).isLt
  have h0 : ((cfg2.win 0).blk t).view.emb j = ((cfg2.win 5).blk t).view.emb j := by
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 64 + 1 * (j 1).val = win2_5.index t (1 : Fin 2) * 64 + 1 * (j 1).val; omega
  have h1 : ((cfg2.win 1).blk t).view.emb j = ((cfg2.win 5).blk t).view.emb j := by
    funext a; apply Fin.ext
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 64 + 1 * (j 1).val = win2_5.index t (1 : Fin 2) * 64 + 1 * (j 1).val; omega
  have h2 : ((cfg2.win 2).blk t).view.emb j = ((cfg2.win 5).blk t).view.emb j := by
    funext a; apply Fin.ext
    match a with
    | ⟨0, _⟩ => show win2_2.index t (0 : Fin 2) * 5000 + 1 * (j 0).val = win2_5.index t (0 : Fin 2) * 5000 + 1 * (j 0).val; omega
    | ⟨1, _⟩ => show win2_2.index t (1 : Fin 2) * 64 + 1 * (j 1).val = win2_5.index t (1 : Fin 2) * 64 + 1 * (j 1).val; omega
  have h3 : ((cfg2.win 3).blk t).view.emb j = ((cfg2.win 5).blk t).view.emb j := by
    funext a; apply Fin.ext
    match a with
    | ⟨0, _⟩ => show win2_3.index t (0 : Fin 2) * 5000 + 1 * (j 0).val = win2_5.index t (0 : Fin 2) * 5000 + 1 * (j 0).val; omega
    | ⟨1, _⟩ => show win2_3.index t (1 : Fin 2) * 64 + 1 * (j 1).val = win2_5.index t (1 : Fin 2) * 64 + 1 * (j 1).val; omega
  have h4 : ((cfg2.win 4).blk t).view.emb (Pay.row64 j) = brow (((cfg2.win 5).blk t).view.emb j) := by
    funext a; apply Fin.ext
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega
  have r0 : iblk2 V c 0 t j = V c main_v118 (((cfg2.win 5).blk t).view.emb j) := congrArg (V c main_v118) h0
  have r1 : iblk2 V c 1 t j = V c main_v137 (((cfg2.win 5).blk t).view.emb j) := congrArg (V c main_v137) h1
  have r2 : iblk2 V c 2 t j = V c main_v156 (((cfg2.win 5).blk t).view.emb j) := congrArg (V c main_v156) h2
  have r3 : iblk2 V c 3 t j = V c main_v175 (((cfg2.win 5).blk t).view.emb j) := congrArg (V c main_v175) h3
  have r4 : iblk2 V c 4 t (Pay.row64 j) = V c main_v176 (brow (((cfg2.win 5).blk t).view.emb j)) := congrArg (V c main_v176) h4
  rw [r0, r1, r2, r3, r4]
  rfl

/-- An index of the output array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v177).slice (win2_5.rect t)).set ↔ _
  rw [View.set_slice_whole, Rect.mem_set_unit]
  exact Iff.rfl

/-- Every entry of the output array is written by the point its row's block of 5000 belongs to. -/
theorem covered (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 5000, by show (i 0).val / 5000 < 20; omega⟩
  obtain ⟨-, -, -, -, -, -, -, -, -, -, e50, e51⟩ := index_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array after the region. -/
theorem final (c : Dev nD) : (dat2 V c).arrAt 5 cfg2.N
    = sumBias (V c main_v118) (V c main_v137) (V c main_v156) (V c main_v175) (V c main_v176) :=
  (dat2 V c).arrAt_eq_of_cover 5 _ (fun t _ => flushed_eq V c t) covered

end Cert.KernelIdeal.Reg2

end
-- ==== Proof.Region1.lean ====
/-
  The product region, from its blocks to its whole output array.

  The grid is 20 × 4, the relation running fastest: point `t` takes rows `5000 (t / 4) … + 4999` of the hidden layer
  and the matrix of relation `t % 4`, and writes the same rows of that relation's plane of the output.  So the output
  after the region is ONE function of the two arrays the region finds: entry `(r, i, j)` is the sum over the 128
  contracted positions `q` of the hidden layer's `(i, q)` times the weight's `(r, q, j)`.  Stated for any contents `V`
  of the buffers at the region's entry.
-/
import proofs.«166910_j1675037246053_1_alg».proof.Proof.Gen.KernelIdeal.Frame
import proofs.«166910_j1675037246053_1_alg».proof.Proof.Payloads

set_option maxRecDepth 16384

noncomputable section

namespace Cert.KernelIdeal.Reg1

open Cert.KernelIdeal Cert.KernelIdeal.Gen
open Idealize.ShloMosaic Idealize.ShloMosaic.TcCoe Idealize.SL.Sem
open Idealize.ShloMosaic.Pipeline (Dat Cfg Window)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl

/-- Row `i 1`, contracted position `q` of the hidden layer. -/
abbrev hrow (i : S4x100000x64.Idx) (q : Fin 128) : S100000x128.Idx := fun a => match a with
  | ⟨0, _⟩ => ⟨(i 1).val, (i 1).isLt⟩
  | ⟨1, _⟩ => ⟨q.val, q.isLt⟩

/-- Relation `i 0`, contracted position `q`, column `i 2` of the weights. -/
abbrev wmat (i : S4x100000x64.Idx) (q : Fin 128) : S4x128x64.Idx := fun a => match a with
  | ⟨0, _⟩ => ⟨(i 0).val, (i 0).isLt⟩
  | ⟨1, _⟩ => ⟨q.val, q.isLt⟩
  | ⟨2, _⟩ => ⟨(i 2).val, (i 2).isLt⟩

/-- The region's output as one function of the two arrays it reads: every relation's matrix product. -/
def products (h : S100000x128.Idx → EReal) (w : S4x128x64.Idx → EReal) : S4x100000x64.Idx → EReal :=
  fun i => ∑ q : Fin 128, h (hrow i q) * w (wmat i q)

/-- The printed index maps over the grid. -/
theorem index_facts : ∀ t : Fin cfg1.N,
    win1_0.index t (0 : Fin 2) = t.val / 4 ∧ win1_0.index t (1 : Fin 2) = 0
    ∧ win1_1.index t (0 : Fin 3) = t.val % 4 ∧ win1_1.index t (1 : Fin 3) = 0 ∧ win1_1.index t (2 : Fin 3) = 0
    ∧ win1_2.index t (0 : Fin 3) = t.val % 4 ∧ win1_2.index t (1 : Fin 3) = t.val / 4 ∧ win1_2.index t (2 : Fin 3) = 0 :=
  (by decide +kernel : ∀ t : Fin grid1.N, _)

/-- What point `t` writes back is block `t` of that function of the arrays as the region finds them. -/
theorem flushed_eq (c : Dev nD) (t : Fin cfg1.N) :
    (dat1 V c).flushed 2 t = ((cfg1.win 2).blk t).view.read (Elt Ideal) (products (V c main_v98) (V c main_arg1)) := by
  show (cfg1.win 2).cut (grid1.coords t) ((dat1 V c).after 2 t) = _
  rw [after1_2]
  unfold out1_2
  rw [View.canon_unit_zero origin3]
  simp only [View.ld_unit_zero (S := S5000x128) origin2, View.ld_unit_zero (S := S1x128x64) origin3]
  obtain ⟨e00, e01, e10, e11, e12, e20, e21, e22⟩ := index_facts t
  refine funext fun (j : S1x5000x64.Idx) => ?_
  refine (Pay.product_apply (iblk1 V c 0 t) (iblk1 V c 1 t) j).trans ?_
  have hj0 : (j 0).val < 1 := (j 0).isLt
  have hj1 : (j 1).val < 5000 := (j 1).isLt
  have hj2 : (j 2).val < 64 := (j 2).isLt
  show _ = products (V c main_v98) (V c main_arg1) (((cfg1.win 2).blk t).view.emb j)
  unfold products
  refine Finset.sum_congr rfl fun q _ => ?_
  have hq : q.val < 128 := q.isLt
  have h0 : ((cfg1.win 0).blk t).view.emb (Pay.lrow (j 1) q) = hrow (((cfg1.win 2).blk t).view.emb j) q := by
    funext a; apply Fin.ext
    match a with
    | ⟨0, _⟩ => show win1_0.index t (0 : Fin 2) * 5000 + 1 * (j 1).val = win1_2.index t (1 : Fin 3) * 5000 + 1 * (j 1).val; omega
    | ⟨1, _⟩ => show win1_0.index t (1 : Fin 2) * 128 + 1 * q.val = q.val; omega
  have h1 : ((cfg1.win 1).blk t).view.emb (Pay.wcol q (j 2)) = wmat (((cfg1.win 2).blk t).view.emb j) q := by
    funext a; apply Fin.ext
    match a with
    | ⟨0, _⟩ => show win1_1.index t (0 : Fin 3) * 1 + 1 * 0 = win1_2.index t (0 : Fin 3) * 1 + 1 * (j 0).val; omega
    | ⟨1, _⟩ => show win1_1.index t (1 : Fin 3) * 128 + 1 * q.val = q.val; omega
    | ⟨2, _⟩ => show win1_1.index t (2 : Fin 3) * 64 + 1 * (j 2).val = win1_2.index t (2 : Fin 3) * 64 + 1 * (j 2).val; omega
  have r0 : iblk1 V c 0 t (Pay.lrow (j 1) q) = V c main_v98 (hrow (((cfg1.win 2).blk t).view.emb j) q) := congrArg (V c main_v98) h0
  have r1 : iblk1 V c 1 t (Pay.wcol q (j 2)) = V c main_arg1 (wmat (((cfg1.win 2).blk t).view.emb j) q) := congrArg (V c main_arg1) h1
  rw [r0, r1]

/-- An index of the output array is in point `t`'s block iff each coordinate is in the block's range on its axis. -/
theorem mem_blk (t : Fin cfg1.N) (i : S4x100000x64.Idx) :
    i ∈ ((cfg1.win 2).blk t).view.set ↔ ∀ a : Fin 3, win1_2.index t a * S1x5000x64.size a ≤ (i a).val ∧ (i a).val < win1_2.index t a * S1x5000x64.size a + S1x5000x64.size a := by
  show i ∈ ((View.whole main_v99).slice (win1_2.rect t)).set ↔ _
  rw [View.set_slice_whole, Rect.mem_set_unit]
  exact Iff.rfl

/-- Every entry `(r, i, j)` of the output is written by the point of row block `i / 5000` and relation `r`. -/
theorem covered (i : S4x100000x64.Idx) : ∃ t : Fin cfg1.N, (cfg1.win 2).flush t = true ∧ i ∈ ((cfg1.win 2).blk t).view.set := by
  have hi0 : (i 0).val < 4 := (i 0).isLt
  have hi1 : (i 1).val < 100000 := (i 1).isLt
  have hi2 : (i 2).val < 64 := (i 2).isLt
  let t : Fin cfg1.N := ⟨(i 1).val / 5000 * 4 + (i 0).val, by show (i 1).val / 5000 * 4 + (i 0).val < 80; omega⟩
  obtain ⟨-, -, -, -, -, e20, e21, e22⟩ := index_facts t
  have ht : t.val = (i 1).val / 5000 * 4 + (i 0).val := rfl
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 5000 ≤ (i 1).val ∧ (i 1).val < win1_2.index t (1 : Fin 3) * 5000 + 5000; omega
  | ⟨2, _⟩ => show win1_2.index t (2 : Fin 3) * 64 ≤ (i 2).val ∧ (i 2).val < win1_2.index t (2 : Fin 3) * 64 + 64; omega

/-- The output array after the region. -/
theorem final (c : Dev nD) : (dat1 V c).arrAt 2 cfg1.N = products (V c main_v98) (V c main_arg1) :=
  (dat1 V c).arrAt_eq_of_cover 2 _ (fun t _ => flushed_eq V c t) covered

end Cert.KernelIdeal.Reg1

end
-- ==== Proof.Region0.lean ====
/-
  The first combine region, from its blocks to its whole output array.

  The grid has twenty points; point `t` reads rows `5000 t … 5000 t + 4999` of each of the four normalized neighbour
  sums and the whole bias row, and writes the same rows of the output.  So the output array after the region is ONE
  function of the five arrays the region finds: at entry `(i, j)` the four sums' entries added left to right, the bias
  entry `j` added, the maximum with zero taken.  Stated for any contents `V` of the buffers at the region's entry.
-/
import proofs.«166910_j1675037246053_1_alg».proof.Proof.Gen.KernelIdeal.Frame
import proofs.«166910_j1675037246053_1_alg».proof.Proof.Payloads

set_option maxRecDepth 16384

noncomputable section

namespace Cert.KernelIdeal.Reg0

open Cert.KernelIdeal Cert.KernelIdeal.Gen
open Idealize.ShloMosaic Idealize.ShloMosaic.TcCoe Idealize.SL.Sem
open Idealize.ShloMosaic.Pipeline (Dat Cfg Window)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl

/-- The bias row's entry above entry `i` of the whole array. -/
abbrev brow (i : S100000x128.Idx) : S1x128.Idx := fun a => match a with
  | ⟨0, _⟩ => ⟨0, Nat.one_pos⟩
  | ⟨1, _⟩ => ⟨(i 1).val, (i 1).isLt⟩

/-- The region's output as one function of the five arrays it reads. -/
def sumRelu (a0 a1 a2 a3 : S100000x128.Idx → EReal) (b : S1x128.Idx → EReal) : S100000x128.Idx → EReal :=
  fun i => max ((((a0 i + a1 i) + a2 i) + a3 i) + b (brow i)) (Ideal.ofBits .f32 0x00000000#32)

/-- The printed index maps over the grid: every row-block window sits at block `(t, 0)`, the bias window at `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of that function of the arrays as the region finds them. -/
theorem flushed_eq (c : Dev nD) (t : Fin cfg0.N) :
    (dat0 V c).flushed 5 t = ((cfg0.win 5).blk t).view.read (Elt Ideal)
      (sumRelu (V c main_v45) (V c main_v62) (V c main_v79) (V c main_v96) (V c main_v97)) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S1x128) origin2]
  obtain ⟨e00, e01, e10, e11, e20, e21, e30, e31, e40, e41, e50, e51⟩ := index_facts t
  refine funext fun (j : S5000x128.Idx) => ?_
  refine (Pay.combine_relu_apply (iblk0 V c 0 t) (iblk0 V c 1 t) (iblk0 V c 2 t) (iblk0 V c 3 t) (iblk0 V c 4 t) j).trans ?_
  have hj0 : (j 0).val < 5000 := (j 0).isLt
  have hj1 : (j 1).val < 128 := (j 1).isLt
  have h0 : ((cfg0.win 0).blk t).view.emb j = ((cfg0.win 5).blk t).view.emb j := by
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb j = ((cfg0.win 5).blk t).view.emb j := by
    funext a; apply Fin.ext
    match a with
    | ⟨0, _⟩ => show win0_2.index t (0 : Fin 2) * 5000 + 1 * (j 0).val = win0_5.index t (0 : Fin 2) * 5000 + 1 * (j 0).val; omega
    | ⟨1, _⟩ => show win0_2.index t (1 : Fin 2) * 128 + 1 * (j 1).val = win0_5.index t (1 : Fin 2) * 128 + 1 * (j 1).val; omega
  have h3 : ((cfg0.win 3).blk t).view.emb j = ((cfg0.win 5).blk t).view.emb j := by
    funext a; apply Fin.ext
    match a with
    | ⟨0, _⟩ => show win0_3.index t (0 : Fin 2) * 5000 + 1 * (j 0).val = win0_5.index t (0 : Fin 2) * 5000 + 1 * (j 0).val; omega
    | ⟨1, _⟩ => show win0_3.index t (1 : Fin 2) * 128 + 1 * (j 1).val = win0_5.index t (1 : Fin 2) * 128 + 1 * (j 1).val; omega
  have h4 : ((cfg0.win 4).blk t).view.emb (Pay.row128 j) = brow (((cfg0.win 5).blk t).view.emb j) := by
    funext a; apply Fin.ext
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  have r0 : iblk0 V c 0 t j = V c main_v45 (((cfg0.win 5).blk t).view.emb j) := congrArg (V c main_v45) h0
  have r1 : iblk0 V c 1 t j = V c main_v62 (((cfg0.win 5).blk t).view.emb j) := congrArg (V c main_v62) h1
  have r2 : iblk0 V c 2 t j = V c main_v79 (((cfg0.win 5).blk t).view.emb j) := congrArg (V c main_v79) h2
  have r3 : iblk0 V c 3 t j = V c main_v96 (((cfg0.win 5).blk t).view.emb j) := congrArg (V c main_v96) h3
  have r4 : iblk0 V c 4 t (Pay.row128 j) = V c main_v97 (brow (((cfg0.win 5).blk t).view.emb j)) := congrArg (V c main_v97) h4
  rw [r0, r1, r2, r3, r4]
  rfl

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v98).slice (win0_5.rect t)).set ↔ _
  rw [View.set_slice_whole, Rect.mem_set_unit]
  exact Iff.rfl

/-- Every entry of the output array is written by the point its row's block of 5000 belongs to. -/
theorem covered (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, by show (i 0).val / 5000 < 20; omega⟩
  obtain ⟨-, -, -, -, -, -, -, -, -, -, e50, e51⟩ := index_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region. -/
theorem final (c : Dev nD) : (dat0 V c).arrAt 5 cfg0.N
    = sumRelu (V c main_v45) (V c main_v62) (V c main_v79) (V c main_v96) (V c main_v97) :=
  (dat0 V c).arrAt_eq_of_cover 5 _ (fun t _ => flushed_eq V c t) covered

end Cert.KernelIdeal.Reg0

end
-- ==== Proof.HostBefore1.lean ====
/-
  The host lines before the first region, read at the buffers that region stages.

  For each relation the host gathers the embedding rows of the edges' sources, adds them into their destinations' rows,
  and divides each row by the destination's in-degree (at least one).  The idealized reference computes the same four
  arrays by the same operations, so each buffer the region finds holds the reference's stage of the same name, as a
  function of the embedding and the two edge arrays.
-/
import proofs.«166910_j1675037246053_1_alg».proof.Proof.Gen.KernelIdeal.Frame
import proofs.«166910_j1675037246053_1_alg».proof.Proof.Gen.ReferenceIdeal.Read

set_option maxRecDepth 16384

noncomputable section

namespace Cert.KernelIdeal.Before

open Cert.KernelIdeal Cert.KernelIdeal.Gen
open Idealize.ShloMosaic Idealize.ShloMosaic.TcCoe Idealize.SL.Sem
open Idealize.ShloMosaic.Pipeline (Dat Cfg Window)
open scoped BigOperators
open Idealize.ShloMosaic.StableHlo (after_cons after_nil)

variable (m : (ℓ : Loc nD τ sig) → Buf (Elt Ideal) ℓ) (ρ : Dev nD → PrngReg) (c : Dev nD)

set_option maxHeartbeats 40000000 in
/-- Relation 0's normalized neighbour sum. -/
theorem mean0 : W1 m ρ c (Proc.devRef .tc main_v45) = Cert.ReferenceIdeal.Read.val_main_v23 (F := Ideal) (m ((c : Thread nD τ).loc main_arg0)) (m ((c : Thread nD τ).loc main_arg4)) (m ((c : Thread nD τ).loc main_arg5)) := by
  show StableHlo.after hostOps0 (W0 m ρ c) (Proc.devRef .tc main_v45) = _
  after_results_simp <;> rfl

set_option maxHeartbeats 40000000 in
/-- Relation 1's normalized neighbour sum. -/
theorem mean1 : W1 m ρ c (Proc.devRef .tc main_v62) = Cert.ReferenceIdeal.Read.val_main_v47 (F := Ideal) (m ((c : Thread nD τ).loc main_arg0)) (m ((c : Thread nD τ).loc main_arg4)) (m ((c : Thread nD τ).loc main_arg5)) := by
  show StableHlo.after hostOps0 (W0 m ρ c) (Proc.devRef .tc main_v62) = _
  after_results_simp <;> rfl

set_option maxHeartbeats 40000000 in
/-- Relation 2's normalized neighbour sum. -/
theorem mean2 : W1 m ρ c (Proc.devRef .tc main_v79) = Cert.ReferenceIdeal.Read.val_main_v71 (F := Ideal) (m ((c : Thread nD τ).loc main_arg0)) (m ((c : Thread nD τ).loc main_arg4)) (m ((c : Thread nD τ).loc main_arg5)) := by
  show StableHlo.after hostOps0 (W0 m ρ c) (Proc.devRef .tc main_v79) = _
  after_results_simp <;> rfl

set_option maxHeartbeats 40000000 in
/-- Relation 3's normalized neighbour sum. -/
theorem mean3 : W1 m ρ c (Proc.devRef .tc main_v96) = Cert.ReferenceIdeal.Read.val_main_v95 (F := Ideal) (m ((c : Thread nD τ).loc main_arg0)) (m ((c : Thread nD τ).loc main_arg4)) (m ((c : Thread nD τ).loc main_arg5)) := by
  show StableHlo.after hostOps0 (W0 m ρ c) (Proc.devRef .tc main_v96) = _
  after_results_simp <;> rfl

end Cert.KernelIdeal.Before

end
-- ==== Proof.HostBefore2.lean ====
/-
  The host lines before the first region, read at the in-degree buffers, the first bias row and the arguments.

  The in-degree of each relation (the count of edges into a node, at least one) is computed once here and read again by
  the host lines after the product region; the reference computes the same array once per layer, by the same operations.
  The first layer's bias is laid out as a row; no host line writes an argument.
-/
import proofs.«166910_j1675037246053_1_alg».proof.Proof.Gen.KernelIdeal.Frame
import proofs.«166910_j1675037246053_1_alg».proof.Proof.Gen.ReferenceIdeal.Read

set_option maxRecDepth 16384

noncomputable section

namespace Cert.KernelIdeal.Before

open Cert.KernelIdeal Cert.KernelIdeal.Gen
open Idealize.ShloMosaic Idealize.ShloMosaic.TcCoe Idealize.SL.Sem
open Idealize.ShloMosaic.Pipeline (Dat Cfg Window)
open scoped BigOperators
open Idealize.ShloMosaic.StableHlo (after_cons after_nil)

variable (m : (ℓ : Loc nD τ sig) → Buf (Elt Ideal) ℓ) (ρ : Dev nD → PrngReg) (c : Dev nD)

set_option maxHeartbeats 40000000 in
/-- Relation 0's in-degrees. -/
theorem deg0 : W1 m ρ c (Proc.devRef .tc main_v7) = Cert.ReferenceIdeal.Read.val_main_v20 (F := Ideal) (m ((c : Thread nD τ).loc main_arg5)) := by
  show StableHlo.after hostOps0 (W0 m ρ c) (Proc.devRef .tc main_v7) = _
  after_results_simp <;> rfl

set_option maxHeartbeats 40000000 in
/-- Relation 1's in-degrees. -/
theorem deg1 : W1 m ρ c (Proc.devRef .tc main_v14) = Cert.ReferenceIdeal.Read.val_main_v44 (F := Ideal) (m ((c : Thread nD τ).loc main_arg5)) := by
  show StableHlo.after hostOps0 (W0 m ρ c) (Proc.devRef .tc main_v14) = _
  after_results_simp <;> rfl

set_option maxHeartbeats 40000000 in
/-- Relation 2's in-degrees. -/
theorem deg2 : W1 m ρ c (Proc.devRef .tc main_v21) = Cert.ReferenceIdeal.Read.val_main_v68 (F := Ideal) (m ((c : Thread nD τ).loc main_arg5)) := by
  show StableHlo.after hostOps0 (W0 m ρ c) (Proc.devRef .tc main_v21) = _
  after_results_simp <;> rfl

set_option maxHeartbeats 40000000 in
/-- Relation 3's in-degrees. -/
theorem deg3 : W1 m ρ c (Proc.devRef .tc main_v28) = Cert.ReferenceIdeal.Read.val_main_v92 (F := Ideal) (m ((c : Thread nD τ).loc main_arg5)) := by
  show StableHlo.after hostOps0 (W0 m ρ c) (Proc.devRef .tc main_v28) = _
  after_results_simp <;> rfl

set_option maxHeartbeats 40000000 in
/-- The first bias as a row. -/
theorem bias1_row : W1 m ρ c (Proc.devRef .tc main_v97) = shapeCast S1x128 (m ((c : Thread nD τ).loc main_arg2)) shapeCasts_S128_S1x128 := by
  show StableHlo.after hostOps0 (W0 m ρ c) (Proc.devRef .tc main_v97) = _
  after_results_simp <;> rfl

set_option maxHeartbeats 40000000 in
/-- The weights are as launched. -/
theorem kept1 : W1 m ρ c (Proc.devRef .tc main_arg1) = (m ((c : Thread nD τ).loc main_arg1)) := by
  show StableHlo.after hostOps0 (W0 m ρ c) (Proc.devRef .tc main_arg1) = _
  after_results_simp <;> rfl

set_option maxHeartbeats 40000000 in
/-- The second bias is as launched. -/
theorem kept3 : W1 m ρ c (Proc.devRef .tc main_arg3) = (m ((c : Thread nD τ).loc main_arg3)) := by
  show StableHlo.after hostOps0 (W0 m ρ c) (Proc.devRef .tc main_arg3) = _
  after_results_simp <;> rfl

set_option maxHeartbeats 40000000 in
/-- The edge sources are as launched. -/
theorem kept4 : W1 m ρ c (Proc.devRef .tc main_arg4) = (m ((c : Thread nD τ).loc main_arg4)) := by
  show StableHlo.after hostOps0 (W0 m ρ c) (Proc.devRef .tc main_arg4) = _
  after_results_simp <;> rfl

set_option maxHeartbeats 40000000 in
/-- The edge destinations are as launched. -/
theorem kept5 : W1 m ρ c (Proc.devRef .tc main_arg5) = (m ((c : Thread nD τ).loc main_arg5)) := by
  show StableHlo.after hostOps0 (W0 m ρ c) (Proc.devRef .tc main_arg5) = _
  after_results_simp <;> rfl

end Cert.KernelIdeal.Before

end
-- ==== Proof.Hidden.lean ====
/-
  The hidden layer the first region leaves is the reference's hidden layer.

  At entry `(i, j)` the region holds the four relations' normalized neighbour sums added left to right, plus the bias
  entry `j`, cut off below at zero.  The reference starts its sum from a zero array; zero is neutral for the addition of
  extended reals, so the two agree entry by entry.
-/
import proofs.«166910_j1675037246053_1_alg».proof.Proof.Gen.KernelIdeal.Frame
import proofs.«166910_j1675037246053_1_alg».proof.Proof.Gen.ReferenceIdeal.Read
import proofs.«166910_j1675037246053_1_alg».proof.Proof.Region0
import proofs.«166910_j1675037246053_1_alg».proof.Proof.HostBefore1
import proofs.«166910_j1675037246053_1_alg».proof.Proof.HostBefore2

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.Pipeline (Dat Cfg Window)
open scoped BigOperators

variable (m : (ℓ : Loc nD τ sig) → Buf (Elt Ideal) ℓ) (ρ : Dev nD → PrngReg) (c : Dev nD)

/-- The array region 0 writes, as the next region finds it. -/
theorem hidden : W2 m ρ c (Proc.devRef .tc main_v98) = Cert.ReferenceIdeal.Read.val_main_v100 (F := Ideal) (m ((c : Thread nD τ).loc main_arg0)) (m ((c : Thread nD τ).loc main_arg2)) (m ((c : Thread nD τ).loc main_arg4)) (m ((c : Thread nD τ).loc main_arg5)) := by
  refine (W2_arr m ρ c 5).trans ?_
  rw [Reg0.final (V1 m ρ) c]
  show Reg0.sumRelu (W1 m ρ c (Proc.devRef .tc main_v45)) (W1 m ρ c (Proc.devRef .tc main_v62)) (W1 m ρ c (Proc.devRef .tc main_v79)) (W1 m ρ c (Proc.devRef .tc main_v96)) (W1 m ρ c (Proc.devRef .tc main_v97)) = _
  rw [Before.mean0, Before.mean1, Before.mean2, Before.mean3, Before.bias1_row]
  funext i
  rw [Cert.ReferenceIdeal.Read.val_main_v100_apply, Cert.ReferenceIdeal.Read.val_main_v99_apply, Cert.ReferenceIdeal.Read.val_main_v96_apply, Cert.ReferenceIdeal.Read.val_main_v72_apply, Cert.ReferenceIdeal.Read.val_main_v48_apply,
    Cert.ReferenceIdeal.Read.val_main_v24_apply, Cert.ReferenceIdeal.Read.val_main_v0_apply, Cert.ReferenceIdeal.Read.val_main_cst_apply, Cert.ReferenceIdeal.Read.val_main_v98_apply, Cert.ReferenceIdeal.Read.val_main_v97_apply,
    Cert.ReferenceIdeal.Read.val_main_call0_v0_apply, Cert.ReferenceIdeal.Read.val_main_call0_cst_apply]
  unfold Reg0.sumRelu
  have hi1 : (i 1).val < 128 := (i 1).isLt
  rw [shapeCast_apply (m ((c : Thread nD τ).loc main_arg2)) shapeCasts_S128_S1x128 (Reg0.brow i) (Cert.ReferenceIdeal.Read.idx_main_v97 (Cert.ReferenceIdeal.Read.idx_main_v98 i)) (by
    show (S128.rowMajor (Cert.ReferenceIdeal.Read.idx_main_v97 (Cert.ReferenceIdeal.Read.idx_main_v98 i))).val = (S1x128.rowMajor (Reg0.brow i)).val
    rewrite [Shape.rowMajor_val_one, Shape.rowMajor_val_two]
    show (i 1).val = 0 * 128 + (i 1).val
    omega)]
  simp only [Ideal.addf_def, Ideal.maximumf_def, Ideal.ofBits_def, Ideal.ofBits_zero_f32, zero_add]

/-- The weights, as the product region finds them. -/
theorem weights : W2 m ρ c (Proc.devRef .tc main_arg1) = (m ((c : Thread nD τ).loc main_arg1)) :=
  (W2_of_ne m ρ c main_arg1 (by decide)).trans (Before.kept1 m ρ c)

end Cert.KernelIdeal.Bridge

end
-- ==== Proof.Planes.lean ====
/-
  Each relation's plane of the product region's output against the reference's matrix product.

  The product region leaves a 4 × 100000 × 64 array, plane `r` holding the hidden layer times relation `r`'s weight
  matrix; the host cuts plane `r` out and lays it flat.  The reference cuts relation `r`'s 128 × 64 matrix out of the
  weights and multiplies the hidden layer by it.  Entry by entry the two are the same sum over the 128 contracted
  positions, once the hidden layers agree.
-/
import proofs.«166910_j1675037246053_1_alg».proof.Proof.Gen.KernelIdeal.Frame
import proofs.«166910_j1675037246053_1_alg».proof.Proof.Gen.ReferenceIdeal.Read
import proofs.«166910_j1675037246053_1_alg».proof.Proof.Region1

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.Pipeline (Dat Cfg Window)
open scoped BigOperators

/-- Relation 0's plane of the products, cut out and laid flat, is the reference's product of the hidden layer with relation
    0's weight matrix: both are the sum over the contracted position of hidden `(i, q)` times weight `(0, q, j)`. -/
theorem plane0 (x0 : (⟨S100000x128, .f32⟩ : BufTy).Contents (Elt Ideal)) (x1 : (⟨S4x128x64, .f32⟩ : BufTy).Contents (Elt Ideal)) (x2 : (⟨S128, .f32⟩ : BufTy).Contents (Elt Ideal)) (x4 x5 : (⟨S4x160000, .i32⟩ : BufTy).Contents (Elt Ideal)) :
    shapeCast S100000x64 (extractStridedSlice S1x100000x64 ![0, 0, 0] (Reg1.products (Cert.ReferenceIdeal.Read.val_main_v100 (F := Ideal) x0 x2 x4 x5) x1) slices_S4x100000x64_S1x100000x64_0_0_0) shapeCasts_S1x100000x64_S100000x64
      = Cert.ReferenceIdeal.Read.val_main_v104 (F := Ideal) x0 x1 x2 x4 x5 := by
  funext i
  have hi0 : (i 0).val < 100000 := (i 0).isLt
  have hi1 : (i 1).val < 64 := (i 1).isLt
  let k1 : S1x100000x64.Idx := fun a => match a with
    | ⟨0, _⟩ => ⟨0, Nat.one_pos⟩
    | ⟨1, _⟩ => ⟨(i 0).val, hi0⟩
    | ⟨2, _⟩ => ⟨(i 1).val, hi1⟩
  let k4 : S4x100000x64.Idx := fun a => match a with
    | ⟨0, _⟩ => ⟨0, by show (0 : ℕ) < 4; omega⟩
    | ⟨1, _⟩ => ⟨(i 0).val, hi0⟩
    | ⟨2, _⟩ => ⟨(i 1).val, hi1⟩
  rw [shapeCast_apply _ shapeCasts_S1x100000x64_S100000x64 i k1 (by
    rewrite [Shape.rowMajor_val_three, Shape.rowMajor_val_two]
    show (0 * 100000 + (i 0).val) * 64 + (i 1).val = (i 0).val * 64 + (i 1).val
    omega)]
  rw [extractStridedSlice_apply ![0, 0, 0] _ slices_S4x100000x64_S1x100000x64_0_0_0 k1 k4 (fun a => match a with
    | ⟨0, _⟩ => by show 0 = 0 + 0; rfl
    | ⟨1, _⟩ => by show (i 0).val = 0 + (i 0).val; omega
    | ⟨2, _⟩ => by show (i 1).val = 0 + (i 1).val; omega)]
  rw [Cert.ReferenceIdeal.Read.val_main_v104_apply]
  unfold Reg1.products
  refine Finset.sum_congr rfl fun q _ => ?_
  have hq : q.val < 128 := q.isLt
  rw [Cert.ReferenceIdeal.Read.val_main_v103_apply, Cert.ReferenceIdeal.Read.val_main_v102_apply]
  have eh : Reg1.hrow k4 q = Cert.ReferenceIdeal.Read.lidx_main_v104 i q := funext fun a => Fin.ext (by
    match a with
    | ⟨0, _⟩ => rfl
    | ⟨1, _⟩ => rfl)
  have ew : Reg1.wmat k4 q = Cert.ReferenceIdeal.Read.idx_main_v102 (Cert.ReferenceIdeal.Read.idx_main_v103 (Cert.ReferenceIdeal.Read.ridx_main_v104 i q)) := funext fun a => Fin.ext (by
    match a with
    | ⟨0, _⟩ => show 0 = 0; rfl
    | ⟨1, _⟩ => show q.val = (q.val * 64 + (i 1).val) / 64 % 128; omega
    | ⟨2, _⟩ => show (i 1).val = (q.val * 64 + (i 1).val) % 64; omega)
  rw [eh, ew]

/-- Relation 1's plane of the products, cut out and laid flat, is the reference's product of the hidden layer with relation
    1's weight matrix: both are the sum over the contracted position of hidden `(i, q)` times weight `(1, q, j)`. -/
theorem plane1 (x0 : (⟨S100000x128, .f32⟩ : BufTy).Contents (Elt Ideal)) (x1 : (⟨S4x128x64, .f32⟩ : BufTy).Contents (Elt Ideal)) (x2 : (⟨S128, .f32⟩ : BufTy).Contents (Elt Ideal)) (x4 x5 : (⟨S4x160000, .i32⟩ : BufTy).Contents (Elt Ideal)) :
    shapeCast S100000x64 (extractStridedSlice S1x100000x64 ![1, 0, 0] (Reg1.products (Cert.ReferenceIdeal.Read.val_main_v100 (F := Ideal) x0 x2 x4 x5) x1) slices_S4x100000x64_S1x100000x64_1_0_0) shapeCasts_S1x100000x64_S100000x64
      = Cert.ReferenceIdeal.Read.val_main_v131 (F := Ideal) x0 x1 x2 x4 x5 := by
  funext i
  have hi0 : (i 0).val < 100000 := (i 0).isLt
  have hi1 : (i 1).val < 64 := (i 1).isLt
  let k1 : S1x100000x64.Idx := fun a => match a with
    | ⟨0, _⟩ => ⟨0, Nat.one_pos⟩
    | ⟨1, _⟩ => ⟨(i 0).val, hi0⟩
    | ⟨2, _⟩ => ⟨(i 1).val, hi1⟩
  let k4 : S4x100000x64.Idx := fun a => match a with
    | ⟨0, _⟩ => ⟨1, by show (1 : ℕ) < 4; omega⟩
    | ⟨1, _⟩ => ⟨(i 0).val, hi0⟩
    | ⟨2, _⟩ => ⟨(i 1).val, hi1⟩
  rw [shapeCast_apply _ shapeCasts_S1x100000x64_S100000x64 i k1 (by
    rewrite [Shape.rowMajor_val_three, Shape.rowMajor_val_two]
    show (0 * 100000 + (i 0).val) * 64 + (i 1).val = (i 0).val * 64 + (i 1).val
    omega)]
  rw [extractStridedSlice_apply ![1, 0, 0] _ slices_S4x100000x64_S1x100000x64_1_0_0 k1 k4 (fun a => match a with
    | ⟨0, _⟩ => by show 1 = 1 + 0; rfl
    | ⟨1, _⟩ => by show (i 0).val = 0 + (i 0).val; omega
    | ⟨2, _⟩ => by show (i 1).val = 0 + (i 1).val; omega)]
  rw [Cert.ReferenceIdeal.Read.val_main_v131_apply]
  unfold Reg1.products
  refine Finset.sum_congr rfl fun q _ => ?_
  have hq : q.val < 128 := q.isLt
  rw [Cert.ReferenceIdeal.Read.val_main_v130_apply, Cert.ReferenceIdeal.Read.val_main_v129_apply]
  have eh : Reg1.hrow k4 q = Cert.ReferenceIdeal.Read.lidx_main_v131 i q := funext fun a => Fin.ext (by
    match a with
    | ⟨0, _⟩ => rfl
    | ⟨1, _⟩ => rfl)
  have ew : Reg1.wmat k4 q = Cert.ReferenceIdeal.Read.idx_main_v129 (Cert.ReferenceIdeal.Read.idx_main_v130 (Cert.ReferenceIdeal.Read.ridx_main_v131 i q)) := funext fun a => Fin.ext (by
    match a with
    | ⟨0, _⟩ => show 1 = 1 + 0; rfl
    | ⟨1, _⟩ => show q.val = (q.val * 64 + (i 1).val) / 64 % 128; omega
    | ⟨2, _⟩ => show (i 1).val = (q.val * 64 + (i 1).val) % 64; omega)
  rw [eh, ew]

/-- Relation 2's plane of the products, cut out and laid flat, is the reference's product of the hidden layer with relation
    2's weight matrix: both are the sum over the contracted position of hidden `(i, q)` times weight `(2, q, j)`. -/
theorem plane2 (x0 : (⟨S100000x128, .f32⟩ : BufTy).Contents (Elt Ideal)) (x1 : (⟨S4x128x64, .f32⟩ : BufTy).Contents (Elt Ideal)) (x2 : (⟨S128, .f32⟩ : BufTy).Contents (Elt Ideal)) (x4 x5 : (⟨S4x160000, .i32⟩ : BufTy).Contents (Elt Ideal)) :
    shapeCast S100000x64 (extractStridedSlice S1x100000x64 ![2, 0, 0] (Reg1.products (Cert.ReferenceIdeal.Read.val_main_v100 (F := Ideal) x0 x2 x4 x5) x1) slices_S4x100000x64_S1x100000x64_2_0_0) shapeCasts_S1x100000x64_S100000x64
      = Cert.ReferenceIdeal.Read.val_main_v158 (F := Ideal) x0 x1 x2 x4 x5 := by
  funext i
  have hi0 : (i 0).val < 100000 := (i 0).isLt
  have hi1 : (i 1).val < 64 := (i 1).isLt
  let k1 : S1x100000x64.Idx := fun a => match a with
    | ⟨0, _⟩ => ⟨0, Nat.one_pos⟩
    | ⟨1, _⟩ => ⟨(i 0).val, hi0⟩
    | ⟨2, _⟩ => ⟨(i 1).val, hi1⟩
  let k4 : S4x100000x64.Idx := fun a => match a with
    | ⟨0, _⟩ => ⟨2, by show (2 : ℕ) < 4; omega⟩
    | ⟨1, _⟩ => ⟨(i 0).val, hi0⟩
    | ⟨2, _⟩ => ⟨(i 1).val, hi1⟩
  rw [shapeCast_apply _ shapeCasts_S1x100000x64_S100000x64 i k1 (by
    rewrite [Shape.rowMajor_val_three, Shape.rowMajor_val_two]
    show (0 * 100000 + (i 0).val) * 64 + (i 1).val = (i 0).val * 64 + (i 1).val
    omega)]
  rw [extractStridedSlice_apply ![2, 0, 0] _ slices_S4x100000x64_S1x100000x64_2_0_0 k1 k4 (fun a => match a with
    | ⟨0, _⟩ => by show 2 = 2 + 0; rfl
    | ⟨1, _⟩ => by show (i 0).val = 0 + (i 0).val; omega
    | ⟨2, _⟩ => by show (i 1).val = 0 + (i 1).val; omega)]
  rw [Cert.ReferenceIdeal.Read.val_main_v158_apply]
  unfold Reg1.products
  refine Finset.sum_congr rfl fun q _ => ?_
  have hq : q.val < 128 := q.isLt
  rw [Cert.ReferenceIdeal.Read.val_main_v157_apply, Cert.ReferenceIdeal.Read.val_main_v156_apply]
  have eh : Reg1.hrow k4 q = Cert.ReferenceIdeal.Read.lidx_main_v158 i q := funext fun a => Fin.ext (by
    match a with
    | ⟨0, _⟩ => rfl
    | ⟨1, _⟩ => rfl)
  have ew : Reg1.wmat k4 q = Cert.ReferenceIdeal.Read.idx_main_v156 (Cert.ReferenceIdeal.Read.idx_main_v157 (Cert.ReferenceIdeal.Read.ridx_main_v158 i q)) := funext fun a => Fin.ext (by
    match a with
    | ⟨0, _⟩ => show 2 = 2 + 0; rfl
    | ⟨1, _⟩ => show q.val = (q.val * 64 + (i 1).val) / 64 % 128; omega
    | ⟨2, _⟩ => show (i 1).val = (q.val * 64 + (i 1).val) % 64; omega)
  rw [eh, ew]

/-- Relation 3's plane of the products, cut out and laid flat, is the reference's product of the hidden layer with relation
    3's weight matrix: both are the sum over the contracted position of hidden `(i, q)` times weight `(3, q, j)`. -/
theorem plane3 (x0 : (⟨S100000x128, .f32⟩ : BufTy).Contents (Elt Ideal)) (x1 : (⟨S4x128x64, .f32⟩ : BufTy).Contents (Elt Ideal)) (x2 : (⟨S128, .f32⟩ : BufTy).Contents (Elt Ideal)) (x4 x5 : (⟨S4x160000, .i32⟩ : BufTy).Contents (Elt Ideal)) :
    shapeCast S100000x64 (extractStridedSlice S1x100000x64 ![3, 0, 0] (Reg1.products (Cert.ReferenceIdeal.Read.val_main_v100 (F := Ideal) x0 x2 x4 x5) x1) slices_S4x100000x64_S1x100000x64_3_0_0) shapeCasts_S1x100000x64_S100000x64
      = Cert.ReferenceIdeal.Read.val_main_v185 (F := Ideal) x0 x1 x2 x4 x5 := by
  funext i
  have hi0 : (i 0).val < 100000 := (i 0).isLt
  have hi1 : (i 1).val < 64 := (i 1).isLt
  let k1 : S1x100000x64.Idx := fun a => match a with
    | ⟨0, _⟩ => ⟨0, Nat.one_pos⟩
    | ⟨1, _⟩ => ⟨(i 0).val, hi0⟩
    | ⟨2, _⟩ => ⟨(i 1).val, hi1⟩
  let k4 : S4x100000x64.Idx := fun a => match a with
    | ⟨0, _⟩ => ⟨3, by show (3 : ℕ) < 4; omega⟩
    | ⟨1, _⟩ => ⟨(i 0).val, hi0⟩
    | ⟨2, _⟩ => ⟨(i 1).val, hi1⟩
  rw [shapeCast_apply _ shapeCasts_S1x100000x64_S100000x64 i k1 (by
    rewrite [Shape.rowMajor_val_three, Shape.rowMajor_val_two]
    show (0 * 100000 + (i 0).val) * 64 + (i 1).val = (i 0).val * 64 + (i 1).val
    omega)]
  rw [extractStridedSlice_apply ![3, 0, 0] _ slices_S4x100000x64_S1x100000x64_3_0_0 k1 k4 (fun a => match a with
    | ⟨0, _⟩ => by show 3 = 3 + 0; rfl
    | ⟨1, _⟩ => by show (i 0).val = 0 + (i 0).val; omega
    | ⟨2, _⟩ => by show (i 1).val = 0 + (i 1).val; omega)]
  rw [Cert.ReferenceIdeal.Read.val_main_v185_apply]
  unfold Reg1.products
  refine Finset.sum_congr rfl fun q _ => ?_
  have hq : q.val < 128 := q.isLt
  rw [Cert.ReferenceIdeal.Read.val_main_v184_apply, Cert.ReferenceIdeal.Read.val_main_v183_apply]
  have eh : Reg1.hrow k4 q = Cert.ReferenceIdeal.Read.lidx_main_v185 i q := funext fun a => Fin.ext (by
    match a with
    | ⟨0, _⟩ => rfl
    | ⟨1, _⟩ => rfl)
  have ew : Reg1.wmat k4 q = Cert.ReferenceIdeal.Read.idx_main_v183 (Cert.ReferenceIdeal.Read.idx_main_v184 (Cert.ReferenceIdeal.Read.ridx_main_v185 i q)) := funext fun a => Fin.ext (by
    match a with
    | ⟨0, _⟩ => show 3 = 3 + 0; rfl
    | ⟨1, _⟩ => show q.val = (q.val * 64 + (i 1).val) / 64 % 128; omega
    | ⟨2, _⟩ => show (i 1).val = (q.val * 64 + (i 1).val) % 64; omega)
  rw [eh, ew]

end Cert.KernelIdeal.Bridge

end
-- ==== Proof.Between.lean ====
/-
  The host lines between the product region and the second combine region.

  For each relation the host cuts that relation's plane out of the products, gathers its rows at the edges' sources,
  adds them into the destinations' rows and divides by the in-degrees computed before the first region.  The reference
  does the same to its own product with that relation's matrix, recomputing the in-degrees by the same operations.  With
  the planes identified with the reference's products, each aggregated array the second combine region finds is the
  reference's stage.
-/
import proofs.«166910_j1675037246053_1_alg».proof.Proof.Gen.KernelIdeal.Frame
import proofs.«166910_j1675037246053_1_alg».proof.Proof.Gen.ReferenceIdeal.Read
import proofs.«166910_j1675037246053_1_alg».proof.Proof.Region1
import proofs.«166910_j1675037246053_1_alg».proof.Proof.Hidden
import proofs.«166910_j1675037246053_1_alg».proof.Proof.Planes
import proofs.«166910_j1675037246053_1_alg».proof.Proof.HostBefore2

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.Pipeline (Dat Cfg Window)
open scoped BigOperators
open Idealize.ShloMosaic.StableHlo (after_cons after_nil)

variable (m : (ℓ : Loc nD τ sig) → Buf (Elt Ideal) ℓ) (ρ : Dev nD → PrngReg) (c : Dev nD)

/-- The products the middle region leaves, as one function of the hidden layer and the weights. -/
theorem products_eq : W3 m ρ c (Proc.devRef .tc main_v99)
    = Reg1.products (Cert.ReferenceIdeal.Read.val_main_v100 (F := Ideal) (m ((c : Thread nD τ).loc main_arg0)) (m ((c : Thread nD τ).loc main_arg2)) (m ((c : Thread nD τ).loc main_arg4)) (m ((c : Thread nD τ).loc main_arg5))) (m ((c : Thread nD τ).loc main_arg1)) := by
  refine (W3_arr m ρ c 2).trans ?_
  rw [Reg1.final (V2 m ρ) c]
  show Reg1.products (W2 m ρ c (Proc.devRef .tc main_v98)) (W2 m ρ c (Proc.devRef .tc main_arg1)) = _
  rw [hidden, weights]

/-- Neither region writes the edge arrays, the second bias or the in-degrees. -/
theorem sources_kept : W3 m ρ c (Proc.devRef .tc main_arg4) = (m ((c : Thread nD τ).loc main_arg4)) :=
  (W3_of_ne m ρ c main_arg4 (by decide)).trans ((W2_of_ne m ρ c main_arg4 (by decide)).trans (Before.kept4 m ρ c))
theorem dests_kept : W3 m ρ c (Proc.devRef .tc main_arg5) = (m ((c : Thread nD τ).loc main_arg5)) :=
  (W3_of_ne m ρ c main_arg5 (by decide)).trans ((W2_of_ne m ρ c main_arg5 (by decide)).trans (Before.kept5 m ρ c))
theorem bias2_kept : W3 m ρ c (Proc.devRef .tc main_arg3) = (m ((c : Thread nD τ).loc main_arg3)) :=
  (W3_of_ne m ρ c main_arg3 (by decide)).trans ((W2_of_ne m ρ c main_arg3 (by decide)).trans (Before.kept3 m ρ c))
theorem deg0_kept : W3 m ρ c (Proc.devRef .tc main_v7) = Cert.ReferenceIdeal.Read.val_main_v20 (F := Ideal) (m ((c : Thread nD τ).loc main_arg5)) :=
  (W3_of_ne m ρ c main_v7 (by decide)).trans ((W2_of_ne m ρ c main_v7 (by decide)).trans (Before.deg0 m ρ c))
theorem deg1_kept : W3 m ρ c (Proc.devRef .tc main_v14) = Cert.ReferenceIdeal.Read.val_main_v44 (F := Ideal) (m ((c : Thread nD τ).loc main_arg5)) :=
  (W3_of_ne m ρ c main_v14 (by decide)).trans ((W2_of_ne m ρ c main_v14 (by decide)).trans (Before.deg1 m ρ c))
theorem deg2_kept : W3 m ρ c (Proc.devRef .tc main_v21) = Cert.ReferenceIdeal.Read.val_main_v68 (F := Ideal) (m ((c : Thread nD τ).loc main_arg5)) :=
  (W3_of_ne m ρ c main_v21 (by decide)).trans ((W2_of_ne m ρ c main_v21 (by decide)).trans (Before.deg2 m ρ c))
theorem deg3_kept : W3 m ρ c (Proc.devRef .tc main_v28) = Cert.ReferenceIdeal.Read.val_main_v92 (F := Ideal) (m ((c : Thread nD τ).loc main_arg5)) :=
  (W3_of_ne m ρ c main_v28 (by decide)).trans ((W2_of_ne m ρ c main_v28 (by decide)).trans (Before.deg3 m ρ c))

set_option maxHeartbeats 40000000 in
/-- Relation 0's aggregated products, as the last region finds them. -/
theorem agg0 : W4 m ρ c (Proc.devRef .tc main_v118) = Cert.ReferenceIdeal.Read.val_main_v127 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps2 (W3 m ρ c) (Proc.devRef .tc main_v118) = _
  after_results_simp
  rw [products_eq, sources_kept, dests_kept, deg0_kept]
  erw [plane0]
  rfl

set_option maxHeartbeats 40000000 in
/-- Relation 1's aggregated products, as the last region finds them. -/
theorem agg1 : W4 m ρ c (Proc.devRef .tc main_v137) = Cert.ReferenceIdeal.Read.val_main_v154 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps2 (W3 m ρ c) (Proc.devRef .tc main_v137) = _
  after_results_simp
  rw [products_eq, sources_kept, dests_kept, deg1_kept]
  erw [plane1]
  rfl

set_option maxHeartbeats 40000000 in
/-- Relation 2's aggregated products, as the last region finds them. -/
theorem agg2 : W4 m ρ c (Proc.devRef .tc main_v156) = Cert.ReferenceIdeal.Read.val_main_v181 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps2 (W3 m ρ c) (Proc.devRef .tc main_v156) = _
  after_results_simp
  rw [products_eq, sources_kept, dests_kept, deg2_kept]
  erw [plane2]
  rfl

set_option maxHeartbeats 40000000 in
/-- Relation 3's aggregated products, as the last region finds them. -/
theorem agg3 : W4 m ρ c (Proc.devRef .tc main_v175) = Cert.ReferenceIdeal.Read.val_main_v208 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps2 (W3 m ρ c) (Proc.devRef .tc main_v175) = _
  after_results_simp
  rw [products_eq, sources_kept, dests_kept, deg3_kept]
  erw [plane3]
  rfl

set_option maxHeartbeats 40000000 in
/-- The second bias as a row. -/
theorem bias2_row : W4 m ρ c (Proc.devRef .tc main_v176) = shapeCast S1x64 (m ((c : Thread nD τ).loc main_arg3)) shapeCasts_S64_S1x64 := by
  show StableHlo.after hostOps2 (W3 m ρ c) (Proc.devRef .tc main_v176) = _
  after_results_simp
  rw [bias2_kept]
  rfl

end Cert.KernelIdeal.Bridge

end
-- ==== Proof.Result.lean ====
/-
  The kernel's result is the reference's result, as functions of the six argument arrays.

  The last region adds the four relations' aggregated products left to right and then the second bias entry of the
  column.  The reference starts the same sum from a zero array, and zero is neutral for the addition of extended reals.
-/
import proofs.«166910_j1675037246053_1_alg».proof.Proof.Gen.KernelIdeal.Frame
import proofs.«166910_j1675037246053_1_alg».proof.Proof.Gen.ReferenceIdeal.Read
import proofs.«166910_j1675037246053_1_alg».proof.Proof.Region2
import proofs.«166910_j1675037246053_1_alg».proof.Proof.Between

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.Pipeline (Dat Cfg Window)
open scoped BigOperators

variable (m : (ℓ : Loc nD τ sig) → Buf (Elt Ideal) ℓ) (ρ : Dev nD → PrngReg) (c : Dev nD)

/-- What the last region leaves in @main's result buffer. -/
theorem result : W5 m ρ c (Proc.devRef .tc main_v177)
    = Cert.ReferenceIdeal.Read.val_main_v212 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W5_arr m ρ c 5).trans ?_
  rw [Reg2.final (V4 m ρ) c]
  show Reg2.sumBias (W4 m ρ c (Proc.devRef .tc main_v118)) (W4 m ρ c (Proc.devRef .tc main_v137)) (W4 m ρ c (Proc.devRef .tc main_v156)) (W4 m ρ c (Proc.devRef .tc main_v175)) (W4 m ρ c (Proc.devRef .tc main_v176)) = _
  rw [agg0, agg1, agg2, agg3, bias2_row]
  funext i
  rw [Cert.ReferenceIdeal.Read.val_main_v212_apply, Cert.ReferenceIdeal.Read.val_main_v209_apply, Cert.ReferenceIdeal.Read.val_main_v182_apply, Cert.ReferenceIdeal.Read.val_main_v155_apply, Cert.ReferenceIdeal.Read.val_main_v128_apply,
    Cert.ReferenceIdeal.Read.val_main_v101_apply, Cert.ReferenceIdeal.Read.val_main_cst_23_apply, Cert.ReferenceIdeal.Read.val_main_v211_apply, Cert.ReferenceIdeal.Read.val_main_v210_apply]
  unfold Reg2.sumBias
  have hi1 : (i 1).val < 64 := (i 1).isLt
  rw [shapeCast_apply (m ((c : Thread nD τ).loc main_arg3)) shapeCasts_S64_S1x64 (Reg2.brow i) (Cert.ReferenceIdeal.Read.idx_main_v210 (Cert.ReferenceIdeal.Read.idx_main_v211 i)) (by
    show (S64.rowMajor (Cert.ReferenceIdeal.Read.idx_main_v210 (Cert.ReferenceIdeal.Read.idx_main_v211 i))).val = (S1x64.rowMajor (Reg2.brow i)).val
    rewrite [Shape.rowMajor_val_one, Shape.rowMajor_val_two]
    show (i 1).val = 0 * 64 + (i 1).val
    omega)]
  simp only [Ideal.addf_def, Ideal.ofBits_def, Ideal.ofBits_zero_f32, zero_add]

end Cert.KernelIdeal.Bridge

end
-- ==== Proof.lean ====
/-
  The kernel — a two-layer relational graph convolution whose gathers and scatter-adds run on the host and whose
  sums over relations, bias, cut-off at zero and per-relation matrix products run in three TensorCore regions — against
  its plain reference, over the extended reals.

  Both programs compute, for each relation, the destination-normalized sum of gathered rows, by the same host
  operations.  The first region adds the four relations' arrays and the bias and cuts off at zero; the reference does the
  same starting from a zero array.  The second region multiplies the hidden layer by each relation's weight matrix,
  narrowing to bf16 first, which is the identity on extended reals; the reference multiplies by each matrix cut out of the
  weights.  The third region adds the four aggregated products and the second bias; the reference again starts from zero.
  Zero is neutral for the addition of extended reals and a matrix product into a zero accumulator is the plain sum over
  the contracted positions, so the two results are one function of the six arguments, and no finiteness of the inputs is
  used.

  The three frames are the generated ones (the reference's is its generated run with the result dropped); the ideal pass
  rewrote nothing, so the kernel's idealization is its own text.
-/
import proofs.«166910_j1675037246053_1_alg».proof.Defs
import proofs.«166910_j1675037246053_1_alg».proof.Proof.Gen.Kernel
import proofs.«166910_j1675037246053_1_alg».proof.Proof.Gen.Kernel.Skeleton
import proofs.«166910_j1675037246053_1_alg».proof.Proof.Gen.Kernel.Launch
import proofs.«166910_j1675037246053_1_alg».proof.Proof.Gen.Kernel.Points
import proofs.«166910_j1675037246053_1_alg».proof.Proof.Gen.Kernel.Frame
import proofs.«166910_j1675037246053_1_alg».proof.Proof.Gen.KernelIdeal
import proofs.«166910_j1675037246053_1_alg».proof.Proof.Gen.KernelIdeal.Skeleton
import proofs.«166910_j1675037246053_1_alg».proof.Proof.Gen.KernelIdeal.Launch
import proofs.«166910_j1675037246053_1_alg».proof.Proof.Gen.KernelIdeal.Points
import proofs.«166910_j1675037246053_1_alg».proof.Proof.Gen.KernelIdeal.Frame
import proofs.«166910_j1675037246053_1_alg».proof.Proof.Gen.ReferenceIdeal
import proofs.«166910_j1675037246053_1_alg».proof.Proof.Gen.ReferenceIdeal.Run
import proofs.«166910_j1675037246053_1_alg».proof.Proof.Gen.ReferenceIdeal.Read
import proofs.«166910_j1675037246053_1_alg».proof.Proof.Gen.Pre_finite_inputs
import proofs.«166910_j1675037246053_1_alg».proof.Proof.KernelRun
import proofs.«166910_j1675037246053_1_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result buffer at the reference's last stage of the (shared) arguments. -/
theorem algebraic : Cert.algebraic_KernelIdeal_ReferenceIdeal := by
  intro m ρ m' ρ' _ hagree
  refine ⟨fun c => Cert.ReferenceIdeal.Read.val_main_v212 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Bridge.result m ρ c), (h c).2⟩)
      (Cert.KernelIdeal.Named.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v212_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
